-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x48x48 : Shape := ⟨4, ![8, 128, 48, 48]⟩
abbrev S8x48x48x2 : Shape := ⟨4, ![8, 48, 48, 2]⟩
abbrev S_ : Shape := ⟨0, ![]⟩

class Facts : Prop where
  bcast_S_S8x128x48x48 : S_.BroadcastsInDim S8x128x48x48 (![] : Fin 0 → Fin S8x128x48x48.rank)
  reducesTo_S8x128x48x48_S_d0_1_2_3 : S8x128x48x48.ReducesTo [0, 1, 2, 3] S_
  h_S_ : 0 < S_.numel
  bcast_S_S8x48x48x2 : S_.BroadcastsInDim S8x48x48x2 (![] : Fin 0 → Fin S8x48x48x2.rank)
  reducesTo_S8x48x48x2_S_d0_1_2_3 : S8x48x48x2.ReducesTo [0, 1, 2, 3] S_

variable [Facts]

def fn {F : FTy → Type} [FloatOps F] (main_arg0 : FVec F S8x128x48x48 .f32) (main_arg1 : FVec F S8x48x48x2 .f32) : IVec S_ 1 :=
  let main_v0 : FVec F S8x128x48x48 .f32 := Host.absf main_arg0
  let main_cst : FVec F S_ .f32 := constant S_ .f32 0x7F800000#32
  let main_v1 : FVec F S8x128x48x48 .f32 := broadcastInDim S8x128x48x48 ![] bcast_S_S8x128x48x48 main_cst
  let main_v2 : IVec S8x128x48x48 1 := cmpf .olt main_v0 main_v1
  let main_c : IVec S_ 1 := constantI S_ 1 1#1
  let main_v3 : IVec S_ 1 := (fun x v => Host.reduce IntOp.andi x v reducesTo_S8x128x48x48_S_d0_1_2_3 h_S_) main_v2 main_c
  let main_v4 : FVec F S8x48x48x2 .f32 := Host.absf main_arg1
  let main_cst_0 : FVec F S_ .f32 := constant S_ .f32 0x7F800000#32
  let main_v5 : FVec F S8x48x48x2 .f32 := broadcastInDim S8x48x48x2 ![] bcast_S_S8x48x48x2 main_cst_0
  let main_v6 : IVec S8x48x48x2 1 := cmpf .olt main_v4 main_v5
  let main_c_1 : IVec S_ 1 := constantI S_ 1 1#1
  let main_v7 : IVec S_ 1 := (fun x v => Host.reduce IntOp.andi x v reducesTo_S8x48x48x2_S_d0_1_2_3 h_S_) main_v6 main_c_1
  let main_v8 : IVec S_ 1 := andi main_v3 main_v7
  main_v8
-- ==== Kernel.lean ====
abbrev S8x128x48x48 : Shape := ⟨4, ![8, 128, 48, 48]⟩
abbrev S8x48x48x2 : Shape := ⟨4, ![8, 48, 48, 2]⟩
abbrev S4x2 : Shape := ⟨2, ![4, 2]⟩
abbrev S8x48x48x1 : Shape := ⟨4, ![8, 48, 48, 1]⟩
abbrev S8x48x48 : Shape := ⟨3, ![8, 48, 48]⟩
abbrev S_ : Shape := ⟨0, ![]⟩
abbrev S48x48 : Shape := ⟨2, ![48, 48]⟩
abbrev S2304 : Shape := ⟨1, ![2304]⟩
abbrev S8x2304x2 : Shape := ⟨3, ![8, 2304, 2]⟩
abbrev S8x2304x1 : Shape := ⟨3, ![8, 2304, 1]⟩
abbrev S8x2304 : Shape := ⟨2, ![8, 2304]⟩
abbrev S8x2304x1x2 : Shape := ⟨4, ![8, 2304, 1, 2]⟩
abbrev S1x1x4x2 : Shape := ⟨4, ![1, 1, 4, 2]⟩
abbrev S8x2304x4x2 : Shape := ⟨4, ![8, 2304, 4, 2]⟩
abbrev S8x2304x4x1 : Shape := ⟨4, ![8, 2304, 4, 1]⟩
abbrev S8x2304x4 : Shape := ⟨3, ![8, 2304, 4]⟩
abbrev S1x2304x1 : Shape := ⟨3, ![1, 2304, 1]⟩
abbrev S8x2304x2304 : Shape := ⟨3, ![8, 2304, 2304]⟩
abbrev S8 : Shape := ⟨1, ![8]⟩
abbrev S8x1x1 : Shape := ⟨3, ![8, 1, 1]⟩
abbrev S8x2304x4x3 : Shape := ⟨4, ![8, 2304, 4, 3]⟩
abbrev S8x128x2304 : Shape := ⟨3, ![8, 128, 2304]⟩
abbrev S1x128x2304 : Shape := ⟨3, ![1, 128, 2304]⟩
abbrev S1x768x2304 : Shape := ⟨3, ![1, 768, 2304]⟩
abbrev S1x128x768 : Shape := ⟨3, ![1, 128, 768]⟩
abbrev S128x2304 : Shape := ⟨2, ![128, 2304]⟩
abbrev S768x2304 : Shape := ⟨2, ![768, 2304]⟩
abbrev S128x768 : Shape := ⟨2, ![128, 768]⟩

abbrev nBuf : Space → Nat
  | .hbm => 141
  | .vmem => 6
  | .smem => 0
  | _ => 0

abbrev hbmTy0_0 (i : Nat) : BufTy := match i % 128 with
  | 0 => ⟨S8x128x48x48, .f32⟩
  | 1 => ⟨S8x48x48x2, .f32⟩
  | 2 => ⟨S4x2, .f32⟩
  | 3 => ⟨S8x48x48x1, .f32⟩
  | 4 => ⟨S8x48x48, .f32⟩
  | 5 => ⟨S_, .f32⟩
  | 6 => ⟨S8x48x48, .f32⟩
  | 7 => ⟨S8x48x48, .i1⟩
  | 8 => ⟨S_, .i1⟩
  | 9 => ⟨S48x48, .i1⟩
  | 10 => ⟨S8x48x48x1, .f32⟩
  | 11 => ⟨S8x48x48, .f32⟩
  | 12 => ⟨S_, .f32⟩
  | 13 => ⟨S8x48x48, .f32⟩
  | 14 => ⟨S8x48x48, .i1⟩
  | 15 => ⟨S_, .i1⟩
  | 16 => ⟨S48x48, .i1⟩
  | 17 => ⟨S48x48, .i1⟩
  | 18 => ⟨S8x48x48x1, .f32⟩
  | 19 => ⟨S8x48x48, .f32⟩
  | 20 => ⟨S_, .f32⟩
  | 21 => ⟨S8x48x48, .f32⟩
  | 22 => ⟨S8x48x48, .i1⟩
  | 23 => ⟨S_, .i1⟩
  | 24 => ⟨S48x48, .i1⟩
  | 25 => ⟨S8x48x48x1, .f32⟩
  | 26 => ⟨S8x48x48, .f32⟩
  | 27 => ⟨S_, .f32⟩
  | 28 => ⟨S8x48x48, .f32⟩
  | 29 => ⟨S8x48x48, .i1⟩
  | 30 => ⟨S_, .i1⟩
  | 31 => ⟨S48x48, .i1⟩
  | 32 => ⟨S48x48, .i1⟩
  | 33 => ⟨S48x48, .i1⟩
  | 34 => ⟨S2304, .i1⟩
  | 35 => ⟨S8x2304x2, .f32⟩
  | 36 => ⟨S8x2304x1, .f32⟩
  | 37 => ⟨S8x2304, .f32⟩
  | 38 => ⟨S_, .f32⟩
  | 39 => ⟨S_, .f32⟩
  | 40 => ⟨S_, .f32⟩
  | 41 => ⟨S8x2304, .f32⟩
  | 42 => ⟨S8x2304, .f32⟩
  | 43 => ⟨S_, .f32⟩
  | 44 => ⟨S8x2304, .f32⟩
  | 45 => ⟨S8x2304, .f32⟩
  | 46 => ⟨S8x2304x1, .f32⟩
  | 47 => ⟨S8x2304, .f32⟩
  | 48 => ⟨S_, .f32⟩
  | 49 => ⟨S_, .f32⟩
  | 50 => ⟨S_, .f32⟩
  | 51 => ⟨S8x2304, .f32⟩
  | 52 => ⟨S8x2304, .f32⟩
  | 53 => ⟨S_, .f32⟩
  | 54 => ⟨S8x2304, .f32⟩
  | 55 => ⟨S8x2304, .f32⟩
  | 56 => ⟨S8x2304x1, .f32⟩
  | 57 => ⟨S8x2304x1, .f32⟩
  | 58 => ⟨S8x2304x2, .f32⟩
  | 59 => ⟨S8x2304x2, .f32⟩
  | 60 => ⟨S8x2304x1x2, .f32⟩
  | 61 => ⟨S1x1x4x2, .f32⟩
  | 62 => ⟨S8x2304x4x2, .f32⟩
  | 63 => ⟨S8x2304x4x2, .f32⟩
  | 64 => ⟨S8x2304x4x2, .f32⟩
  | 65 => ⟨S8x2304x4x1, .f32⟩
  | 66 => ⟨S8x2304x4, .f32⟩
  | 67 => ⟨S_, .f32⟩
  | 68 => ⟨S8x2304x4, .f32⟩
  | 69 => ⟨S8x2304x4, .f32⟩
  | 70 => ⟨S8x2304x4x1, .f32⟩
  | 71 => ⟨S8x2304x4, .f32⟩
  | 72 => ⟨S8x2304x4, .f32⟩
  | 73 => ⟨S8x2304x4, .i32⟩
  | 74 => ⟨S8x2304x2, .f32⟩
  | 75 => ⟨S8x2304x1, .f32⟩
  | 76 => ⟨S8x2304, .f32⟩
  | 77 => ⟨S8x2304x1, .f32⟩
  | 78 => ⟨S8x2304, .f32⟩
  | 79 => ⟨S_, .f32⟩
  | 80 => ⟨S8x2304, .f32⟩
  | 81 => ⟨S8x2304, .f32⟩
  | 82 => ⟨S_, .f32⟩
  | 83 => ⟨S8x2304, .f32⟩
  | 84 => ⟨S8x2304, .f32⟩
  | 85 => ⟨S8x2304, .f32⟩
  | 86 => ⟨S_, .f32⟩
  | 87 => ⟨S8x2304, .f32⟩
  | 88 => ⟨S8x2304, .f32⟩
  | 89 => ⟨S8x2304, .f32⟩
  | 90 => ⟨S_, .f32⟩
  | 91 => ⟨S8x2304, .f32⟩
  | 92 => ⟨S8x2304, .f32⟩
  | 93 => ⟨S8x2304, .f32⟩
  | 94 => ⟨S8x2304, .f32⟩
  | 95 => ⟨S8x2304x1, .f32⟩
  | 96 => ⟨S8x2304x1, .f32⟩
  | 97 => ⟨S8x2304x1, .f32⟩
  | 98 => ⟨S8x2304x1, .f32⟩
  | 99 => ⟨S8x2304x4, .f32⟩
  | 100 => ⟨S1x2304x1, .i1⟩
  | 101 => ⟨S1x2304x1, .f32⟩
  | 102 => ⟨S8x2304x4, .f32⟩
  | 103 => ⟨S8x2304x4, .f32⟩
  | 104 => ⟨S_, .f32⟩
  | 105 => ⟨S8x2304x2304, .f32⟩
  | 106 => ⟨S8, .i32⟩
  | 107 => ⟨S8x1x1, .i32⟩
  | 108 => ⟨S2304, .i32⟩
  | 109 => ⟨S1x2304x1, .i32⟩
  | 110 => ⟨S_, .i32⟩
  | 111 => ⟨S8x1x1, .i32⟩
  | 112 => ⟨S8x1x1, .i1⟩
  | 113 => ⟨S_, .i32⟩
  | 114 => ⟨S8x1x1, .i32⟩
  | 115 => ⟨S8x1x1, .i32⟩
  | 116 => ⟨S8x1x1, .i32⟩
  | 117 => ⟨S_, .i32⟩
  | 118 => ⟨S1x2304x1, .i32⟩
  | 119 => ⟨S1x2304x1, .i1⟩
  | 120 => ⟨S_, .i32⟩
  | 121 => ⟨S1x2304x1, .i32⟩
  | 122 => ⟨S1x2304x1, .i32⟩
  | 123 => ⟨S1x2304x1, .i32⟩
  | 124 => ⟨S_, .i32⟩
  | 125 => ⟨S8x2304x4, .i32⟩
  | 126 => ⟨S8x2304x4, .i1⟩
  | 127 => ⟨S_, .i32⟩
  | _ => ⟨S8x128x48x48, .f32⟩

abbrev hbmTy0_1 (i : Nat) : BufTy := match i % 128 with
  | 0 => ⟨S8x2304x4, .i32⟩
  | 1 => ⟨S8x2304x4, .i32⟩
  | 2 => ⟨S8x2304x4, .i32⟩
  | 3 => ⟨S8x2304x4, .i32⟩
  | 4 => ⟨S8x2304x4, .i32⟩
  | 5 => ⟨S8x2304x4x1, .i32⟩
  | 6 => ⟨S8x2304x4x1, .i32⟩
  | 7 => ⟨S8x2304x4x1, .i32⟩
  | 8 => ⟨S8x2304x4x3, .i32⟩
  | 9 => ⟨S8x2304x2304, .f32⟩
  | 10 => ⟨S8x128x2304, .f32⟩
  | 11 => ⟨S8x128x2304, .f32⟩
  | 12 => ⟨S8x128x48x48, .f32⟩
  | _ => ⟨S8x128x48x48, .f32⟩

abbrev hbmTy (i : Nat) : BufTy := match i / 128 with
  | 0 => hbmTy0_0 i
  | 1 => hbmTy0_1 i
  | _ => ⟨S8x128x48x48, .f32⟩

abbrev bufTy : (tb : Table) → Fin (tcTables nBuf tb) → BufTy
  | .hbm, ⟨i, _⟩ => hbmTy i
  | .local _ .vmem, ⟨0, _⟩ => ⟨S1x128x2304, .f32⟩
  | .local _ .vmem, ⟨1, _⟩ => ⟨S1x128x2304, .f32⟩
  | .local _ .vmem, ⟨2, _⟩ => ⟨S1x768x2304, .f32⟩
  | .local _ .vmem, ⟨3, _⟩ => ⟨S1x768x2304, .f32⟩
  | .local _ .vmem, ⟨4, _⟩ => ⟨S1x128x768, .f32⟩
  | .local _ .vmem, ⟨5, _⟩ => ⟨S1x128x768, .f32⟩
  | _, _ => ⟨S8x128x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_cst_10 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_c_20 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_21 : Ref sig .tc := ⟨.hbm, 124, rfl⟩
abbrev main_v89 : Ref sig .tc := ⟨.hbm, 125, rfl⟩
abbrev main_v90 : Ref sig .tc := ⟨.hbm, 126, rfl⟩
abbrev main_c_22 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8x48x48x2_S8x48x48x1_0_0_0_0 : S8x48x48x2.Slices ![0, 0, 0, 0] S8x48x48x1
  shapeCasts_S8x48x48x1_S8x48x48 : S8x48x48x1.ShapeCasts S8x48x48
  bcast_S_S8x48x48 : S_.BroadcastsInDim S8x48x48 (![] : Fin 0 → Fin S8x48x48.rank)
  reducesTo_S8x48x48_S48x48_d0 : S8x48x48.ReducesTo [0] S48x48
  h_S_ : 0 < S_.numel
  slices_S8x48x48x2_S8x48x48x1_0_0_0_1 : S8x48x48x2.Slices ![0, 0, 0, 1] S8x48x48x1
  shapeCasts_S48x48_S2304 : S48x48.ShapeCasts S2304
  shapeCasts_S8x48x48x2_S8x2304x2 : S8x48x48x2.ShapeCasts S8x2304x2
  slices_S8x2304x2_S8x2304x1_0_0_0 : S8x2304x2.Slices ![0, 0, 0] S8x2304x1
  shapeCasts_S8x2304x1_S8x2304 : S8x2304x1.ShapeCasts S8x2304
  bcast_S_S8x2304 : S_.BroadcastsInDim S8x2304 (![] : Fin 0 → Fin S8x2304.rank)
  slices_S8x2304x2_S8x2304x1_0_0_1 : S8x2304x2.Slices ![0, 0, 1] S8x2304x1
  bcast_S8x2304_S8x2304x1_0_1 : S8x2304.BroadcastsInDim S8x2304x1 (![0, 1] : Fin 2 → Fin S8x2304x1.rank)
  concatenates_S8x2304x1_S8x2304x1_S8x2304x2_d2 : Shape.Concatenates [S8x2304x1, S8x2304x1] S8x2304x2 2
  bcast_S8x2304x2_S8x2304x1x2_0_1_3 : S8x2304x2.BroadcastsInDim S8x2304x1x2 (![0, 1, 3] : Fin 3 → Fin S8x2304x1x2.rank)
  bcast_S4x2_S1x1x4x2_2_3 : S4x2.BroadcastsInDim S1x1x4x2 (![2, 3] : Fin 2 → Fin S1x1x4x2.rank)
  bcast_S8x2304x1x2_S8x2304x4x2_0_1_2_3 : S8x2304x1x2.BroadcastsInDim S8x2304x4x2 (![0, 1, 2, 3] : Fin 4 → Fin S8x2304x4x2.rank)
  bcast_S1x1x4x2_S8x2304x4x2_0_1_2_3 : S1x1x4x2.BroadcastsInDim S8x2304x4x2 (![0, 1, 2, 3] : Fin 4 → Fin S8x2304x4x2.rank)
  slices_S8x2304x4x2_S8x2304x4x1_0_0_0_0 : S8x2304x4x2.Slices ![0, 0, 0, 0] S8x2304x4x1
  shapeCasts_S8x2304x4x1_S8x2304x4 : S8x2304x4x1.ShapeCasts S8x2304x4
  bcast_S_S8x2304x4 : S_.BroadcastsInDim S8x2304x4 (![] : Fin 0 → Fin S8x2304x4.rank)
  slices_S8x2304x4x2_S8x2304x4x1_0_0_0_1 : S8x2304x4x2.Slices ![0, 0, 0, 1] S8x2304x4x1
  concatenates_S8x2304x1_S8x2304x1_S8x2304x1_S8x2304x1_S8x2304x4_d2 : Shape.Concatenates [S8x2304x1, S8x2304x1, S8x2304x1, S8x2304x1] S8x2304x4 2
  bcast_S2304_S1x2304x1_1 : S2304.BroadcastsInDim S1x2304x1 (![1] : Fin 1 → Fin S1x2304x1.rank)
  bcast_S1x2304x1_S8x2304x4_0_1_2 : S1x2304x1.BroadcastsInDim S8x2304x4 (![0, 1, 2] : Fin 3 → Fin S8x2304x4.rank)
  bcast_S_S8x2304x2304 : S_.BroadcastsInDim S8x2304x2304 (![] : Fin 0 → Fin S8x2304x2304.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S1x2304x1 : S_.BroadcastsInDim S1x2304x1 (![] : Fin 0 → Fin S1x2304x1.rank)
  bcast_S8x1x1_S8x2304x4_0_1_2 : S8x1x1.BroadcastsInDim S8x2304x4 (![0, 1, 2] : Fin 3 → Fin S8x2304x4.rank)
  bcast_S8x2304x4_S8x2304x4x1_0_1_2 : S8x2304x4.BroadcastsInDim S8x2304x4x1 (![0, 1, 2] : Fin 3 → Fin S8x2304x4x1.rank)
  concatenates_S8x2304x4x1_S8x2304x4x1_S8x2304x4x1_S8x2304x4x3_d3 : Shape.Concatenates [S8x2304x4x1, S8x2304x4x1, S8x2304x4x1] S8x2304x4x3 3
  shapeCasts_S8x128x48x48_S8x128x2304 : S8x128x48x48.ShapeCasts S8x128x2304
  inb_S1x128x2304_S1x128x2304_0_0_0 : ∀ a, (![0, 0, 0] : Fin 3 → Nat) a + S1x128x2304.size a ≤ S1x128x2304.size a
  h_S1x128x2304 : 0 < S1x128x2304.numel
  shapeCasts_S1x128x2304_S128x2304 : S1x128x2304.ShapeCasts S128x2304
  inb_S1x768x2304_S1x768x2304_0_0_0 : ∀ a, (![0, 0, 0] : Fin 3 → Nat) a + S1x768x2304.size a ≤ S1x768x2304.size a
  h_S1x768x2304 : 0 < S1x768x2304.numel
  shapeCasts_S1x768x2304_S768x2304 : S1x768x2304.ShapeCasts S768x2304
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S1x128x768 : S128x768.ShapeCasts S1x128x768
  shapeCasts_S8x128x2304_S8x128x48x48 : S8x128x2304.ShapeCasts S8x128x48x48
  scatter_S8x2304x2304_S8x2304x4x3_S8x2304x4_n_012_012_3_wf : ScatterDims.WF S8x2304x2304 S8x2304x4x3 S8x2304x4 [] [0, 1, 2] [0, 1, 2] 3
  dot_S128x2304_S768x2304_S128x768_1_1_0_0_n_n_wf : DotDims.WF S128x2304 S768x2304 S128x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2304.size a ≤ S8x128x2304.size a
  hwx0_0 : ∀ i : grid0.Coords, EltTy.bits .f32 = 32 ∨ (Rect.block (s := S8x128x2304) S1x128x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x2304.size a ≤ S8x2304x2304.size a
  hwx0_1 : ∀ i : grid0.Coords, EltTy.bits .f32 = 32 ∨ (Rect.block (s := S8x2304x2304) S1x768x2304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x768.size a ≤ S8x128x2304.size a
  hwx0_2 : ∀ i : grid0.Coords, EltTy.bits .f32 = 32 ∨ (Rect.block (s := S8x128x2304) S1x128x768.size (cc0_transform_2 i) (hinb0_2 i)).WholeWords (EltTy.packing .f32)

variable [Facts₀]

def scatter_S8x2304x2304_S8x2304x4x3_S8x2304x4_n_012_012_3 : ScatterDims S8x2304x2304 S8x2304x4x3 S8x2304x4 where
  updateWindowDims := []
  insertedWindowDims := [0, 1, 2]
  scatterDimsToOperandDims := [0, 1, 2]
  indexVectorDim := 3
  wf := scatter_S8x2304x2304_S8x2304x4x3_S8x2304x4_n_012_012_3_wf
def dot_S128x2304_S768x2304_S128x768_1_1_0_0_n_n : DotDims S128x2304 S768x2304 S128x768 where
  lhsContracting := [1]
  rhsContracting := [1]
  lhsNonContracting := [0]
  rhsNonContracting := [0]
  lhsBatch := []
  rhsBatch := []
  wf := dot_S128x2304_S768x2304_S128x768_1_1_0_0_n_n_wf

abbrev win0_0 : Pipeline.Window sig grid0 :=
  Pipeline.Window.ofSpec (Memref.whole main_v101) S1x128x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v100) S1x768x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S1x128x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x48x48 : Shape := ⟨4, ![8, 128, 48, 48]⟩
abbrev S8x48x48x2 : Shape := ⟨4, ![8, 48, 48, 2]⟩
abbrev S4x2 : Shape := ⟨2, ![4, 2]⟩
abbrev S8x48x48x1 : Shape := ⟨4, ![8, 48, 48, 1]⟩
abbrev S8x48x48 : Shape := ⟨3, ![8, 48, 48]⟩
abbrev S_ : Shape := ⟨0, ![]⟩
abbrev S48x48 : Shape := ⟨2, ![48, 48]⟩
abbrev S2304 : Shape := ⟨1, ![2304]⟩
abbrev S8x2304x2 : Shape := ⟨3, ![8, 2304, 2]⟩
abbrev S8x2304x1 : Shape := ⟨3, ![8, 2304, 1]⟩
abbrev S8x2304 : Shape := ⟨2, ![8, 2304]⟩
abbrev S8x2304x1x2 : Shape := ⟨4, ![8, 2304, 1, 2]⟩
abbrev S1x1x4x2 : Shape := ⟨4, ![1, 1, 4, 2]⟩
abbrev S8x2304x4x2 : Shape := ⟨4, ![8, 2304, 4, 2]⟩
abbrev S8x2304x4x1 : Shape := ⟨4, ![8, 2304, 4, 1]⟩
abbrev S8x2304x4 : Shape := ⟨3, ![8, 2304, 4]⟩
abbrev S1x2304x1 : Shape := ⟨3, ![1, 2304, 1]⟩
abbrev S8x2304x2304 : Shape := ⟨3, ![8, 2304, 2304]⟩
abbrev S8 : Shape := ⟨1, ![8]⟩
abbrev S8x1x1 : Shape := ⟨3, ![8, 1, 1]⟩
abbrev S8x2304x4x3 : Shape := ⟨4, ![8, 2304, 4, 3]⟩
abbrev S8x128x2304 : Shape := ⟨3, ![8, 128, 2304]⟩

abbrev nBuf : Space → Nat
  | .hbm => 141
  | .vmem => 0
  | .smem => 0
  | _ => 0

abbrev hbmTy0_0 (i : Nat) : BufTy := match i % 128 with
  | 0 => ⟨S8x128x48x48, .f32⟩
  | 1 => ⟨S8x48x48x2, .f32⟩
  | 2 => ⟨S4x2, .f32⟩
  | 3 => ⟨S8x48x48x1, .f32⟩
  | 4 => ⟨S8x48x48, .f32⟩
  | 5 => ⟨S_, .f32⟩
  | 6 => ⟨S8x48x48, .f32⟩
  | 7 => ⟨S8x48x48, .i1⟩
  | 8 => ⟨S_, .i1⟩
  | 9 => ⟨S48x48, .i1⟩
  | 10 => ⟨S8x48x48x1, .f32⟩
  | 11 => ⟨S8x48x48, .f32⟩
  | 12 => ⟨S_, .f32⟩
  | 13 => ⟨S8x48x48, .f32⟩
  | 14 => ⟨S8x48x48, .i1⟩
  | 15 => ⟨S_, .i1⟩
  | 16 => ⟨S48x48, .i1⟩
  | 17 => ⟨S48x48, .i1⟩
  | 18 => ⟨S8x48x48x1, .f32⟩
  | 19 => ⟨S8x48x48, .f32⟩
  | 20 => ⟨S_, .f32⟩
  | 21 => ⟨S8x48x48, .f32⟩
  | 22 => ⟨S8x48x48, .i1⟩
  | 23 => ⟨S_, .i1⟩
  | 24 => ⟨S48x48, .i1⟩
  | 25 => ⟨S8x48x48x1, .f32⟩
  | 26 => ⟨S8x48x48, .f32⟩
  | 27 => ⟨S_, .f32⟩
  | 28 => ⟨S8x48x48, .f32⟩
  | 29 => ⟨S8x48x48, .i1⟩
  | 30 => ⟨S_, .i1⟩
  | 31 => ⟨S48x48, .i1⟩
  | 32 => ⟨S48x48, .i1⟩
  | 33 => ⟨S48x48, .i1⟩
  | 34 => ⟨S2304, .i1⟩
  | 35 => ⟨S8x2304x2, .f32⟩
  | 36 => ⟨S8x2304x1, .f32⟩
  | 37 => ⟨S8x2304, .f32⟩
  | 38 => ⟨S_, .f32⟩
  | 39 => ⟨S_, .f32⟩
  | 40 => ⟨S_, .f32⟩
  | 41 => ⟨S8x2304, .f32⟩
  | 42 => ⟨S8x2304, .f32⟩
  | 43 => ⟨S_, .f32⟩
  | 44 => ⟨S8x2304, .f32⟩
  | 45 => ⟨S8x2304, .f32⟩
  | 46 => ⟨S8x2304x1, .f32⟩
  | 47 => ⟨S8x2304, .f32⟩
  | 48 => ⟨S_, .f32⟩
  | 49 => ⟨S_, .f32⟩
  | 50 => ⟨S_, .f32⟩
  | 51 => ⟨S8x2304, .f32⟩
  | 52 => ⟨S8x2304, .f32⟩
  | 53 => ⟨S_, .f32⟩
  | 54 => ⟨S8x2304, .f32⟩
  | 55 => ⟨S8x2304, .f32⟩
  | 56 => ⟨S8x2304x1, .f32⟩
  | 57 => ⟨S8x2304x1, .f32⟩
  | 58 => ⟨S8x2304x2, .f32⟩
  | 59 => ⟨S8x2304x2, .f32⟩
  | 60 => ⟨S8x2304x1x2, .f32⟩
  | 61 => ⟨S1x1x4x2, .f32⟩
  | 62 => ⟨S8x2304x4x2, .f32⟩
  | 63 => ⟨S8x2304x4x2, .f32⟩
  | 64 => ⟨S8x2304x4x2, .f32⟩
  | 65 => ⟨S8x2304x4x1, .f32⟩
  | 66 => ⟨S8x2304x4, .f32⟩
  | 67 => ⟨S_, .f32⟩
  | 68 => ⟨S8x2304x4, .f32⟩
  | 69 => ⟨S8x2304x4, .f32⟩
  | 70 => ⟨S8x2304x4x1, .f32⟩
  | 71 => ⟨S8x2304x4, .f32⟩
  | 72 => ⟨S8x2304x4, .f32⟩
  | 73 => ⟨S8x2304x4, .i32⟩
  | 74 => ⟨S8x2304x2, .f32⟩
  | 75 => ⟨S8x2304x1, .f32⟩
  | 76 => ⟨S8x2304, .f32⟩
  | 77 => ⟨S8x2304x1, .f32⟩
  | 78 => ⟨S8x2304, .f32⟩
  | 79 => ⟨S_, .f32⟩
  | 80 => ⟨S8x2304, .f32⟩
  | 81 => ⟨S8x2304, .f32⟩
  | 82 => ⟨S_, .f32⟩
  | 83 => ⟨S8x2304, .f32⟩
  | 84 => ⟨S8x2304, .f32⟩
  | 85 => ⟨S8x2304, .f32⟩
  | 86 => ⟨S_, .f32⟩
  | 87 => ⟨S8x2304, .f32⟩
  | 88 => ⟨S8x2304, .f32⟩
  | 89 => ⟨S8x2304, .f32⟩
  | 90 => ⟨S_, .f32⟩
  | 91 => ⟨S8x2304, .f32⟩
  | 92 => ⟨S8x2304, .f32⟩
  | 93 => ⟨S8x2304, .f32⟩
  | 94 => ⟨S8x2304, .f32⟩
  | 95 => ⟨S8x2304x1, .f32⟩
  | 96 => ⟨S8x2304x1, .f32⟩
  | 97 => ⟨S8x2304x1, .f32⟩
  | 98 => ⟨S8x2304x1, .f32⟩
  | 99 => ⟨S8x2304x4, .f32⟩
  | 100 => ⟨S1x2304x1, .i1⟩
  | 101 => ⟨S1x2304x1, .f32⟩
  | 102 => ⟨S8x2304x4, .f32⟩
  | 103 => ⟨S8x2304x4, .f32⟩
  | 104 => ⟨S_, .f32⟩
  | 105 => ⟨S8x2304x2304, .f32⟩
  | 106 => ⟨S8, .i32⟩
  | 107 => ⟨S8x1x1, .i32⟩
  | 108 => ⟨S2304, .i32⟩
  | 109 => ⟨S1x2304x1, .i32⟩
  | 110 => ⟨S_, .i32⟩
  | 111 => ⟨S8x1x1, .i32⟩
  | 112 => ⟨S8x1x1, .i1⟩
  | 113 => ⟨S_, .i32⟩
  | 114 => ⟨S8x1x1, .i32⟩
  | 115 => ⟨S8x1x1, .i32⟩
  | 116 => ⟨S8x1x1, .i32⟩
  | 117 => ⟨S_, .i32⟩
  | 118 => ⟨S1x2304x1, .i32⟩
  | 119 => ⟨S1x2304x1, .i1⟩
  | 120 => ⟨S_, .i32⟩
  | 121 => ⟨S1x2304x1, .i32⟩
  | 122 => ⟨S1x2304x1, .i32⟩
  | 123 => ⟨S1x2304x1, .i32⟩
  | 124 => ⟨S_, .i32⟩
  | 125 => ⟨S8x2304x4, .i32⟩
  | 126 => ⟨S8x2304x4, .i1⟩
  | 127 => ⟨S_, .i32⟩
  | _ => ⟨S8x128x48x48, .f32⟩

abbrev hbmTy0_1 (i : Nat) : BufTy := match i % 128 with
  | 0 => ⟨S8x2304x4, .i32⟩
  | 1 => ⟨S8x2304x4, .i32⟩
  | 2 => ⟨S8x2304x4, .i32⟩
  | 3 => ⟨S8x2304x4, .i32⟩
  | 4 => ⟨S8x2304x4, .i32⟩
  | 5 => ⟨S8x2304x4x1, .i32⟩
  | 6 => ⟨S8x2304x4x1, .i32⟩
  | 7 => ⟨S8x2304x4x1, .i32⟩
  | 8 => ⟨S8x2304x4x3, .i32⟩
  | 9 => ⟨S8x2304x2304, .f32⟩
  | 10 => ⟨S8x128x2304, .f32⟩
  | 11 => ⟨S8x128x2304, .f32⟩
  | 12 => ⟨S8x128x48x48, .f32⟩
  | _ => ⟨S8x128x48x48, .f32⟩

abbrev hbmTy (i : Nat) : BufTy := match i / 128 with
  | 0 => hbmTy0_0 i
  | 1 => hbmTy0_1 i
  | _ => ⟨S8x128x48x48, .f32⟩

abbrev bufTy : (tb : Table) → Fin (tcTables nBuf tb) → BufTy
  | .hbm, ⟨i, _⟩ => hbmTy i
  | _, _ => ⟨S8x128x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_cst_10 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_c_20 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_21 : Ref sig .tc := ⟨.hbm, 124, rfl⟩
abbrev main_v89 : Ref sig .tc := ⟨.hbm, 125, rfl⟩
abbrev main_v90 : Ref sig .tc := ⟨.hbm, 126, rfl⟩
abbrev main_c_22 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S8x48x48x2_S8x48x48x1_0_0_0_0 : S8x48x48x2.Slices ![0, 0, 0, 0] S8x48x48x1
  shapeCasts_S8x48x48x1_S8x48x48 : S8x48x48x1.ShapeCasts S8x48x48
  bcast_S_S8x48x48 : S_.BroadcastsInDim S8x48x48 (![] : Fin 0 → Fin S8x48x48.rank)
  reducesTo_S8x48x48_S48x48_d0 : S8x48x48.ReducesTo [0] S48x48
  h_S_ : 0 < S_.numel
  slices_S8x48x48x2_S8x48x48x1_0_0_0_1 : S8x48x48x2.Slices ![0, 0, 0, 1] S8x48x48x1
  shapeCasts_S48x48_S2304 : S48x48.ShapeCasts S2304
  shapeCasts_S8x48x48x2_S8x2304x2 : S8x48x48x2.ShapeCasts S8x2304x2
  slices_S8x2304x2_S8x2304x1_0_0_0 : S8x2304x2.Slices ![0, 0, 0] S8x2304x1
  shapeCasts_S8x2304x1_S8x2304 : S8x2304x1.ShapeCasts S8x2304
  bcast_S_S8x2304 : S_.BroadcastsInDim S8x2304 (![] : Fin 0 → Fin S8x2304.rank)
  slices_S8x2304x2_S8x2304x1_0_0_1 : S8x2304x2.Slices ![0, 0, 1] S8x2304x1
  bcast_S8x2304_S8x2304x1_0_1 : S8x2304.BroadcastsInDim S8x2304x1 (![0, 1] : Fin 2 → Fin S8x2304x1.rank)
  concatenates_S8x2304x1_S8x2304x1_S8x2304x2_d2 : Shape.Concatenates [S8x2304x1, S8x2304x1] S8x2304x2 2
  bcast_S8x2304x2_S8x2304x1x2_0_1_3 : S8x2304x2.BroadcastsInDim S8x2304x1x2 (![0, 1, 3] : Fin 3 → Fin S8x2304x1x2.rank)
  bcast_S4x2_S1x1x4x2_2_3 : S4x2.BroadcastsInDim S1x1x4x2 (![2, 3] : Fin 2 → Fin S1x1x4x2.rank)
  bcast_S8x2304x1x2_S8x2304x4x2_0_1_2_3 : S8x2304x1x2.BroadcastsInDim S8x2304x4x2 (![0, 1, 2, 3] : Fin 4 → Fin S8x2304x4x2.rank)
  bcast_S1x1x4x2_S8x2304x4x2_0_1_2_3 : S1x1x4x2.BroadcastsInDim S8x2304x4x2 (![0, 1, 2, 3] : Fin 4 → Fin S8x2304x4x2.rank)
  slices_S8x2304x4x2_S8x2304x4x1_0_0_0_0 : S8x2304x4x2.Slices ![0, 0, 0, 0] S8x2304x4x1
  shapeCasts_S8x2304x4x1_S8x2304x4 : S8x2304x4x1.ShapeCasts S8x2304x4
  bcast_S_S8x2304x4 : S_.BroadcastsInDim S8x2304x4 (![] : Fin 0 → Fin S8x2304x4.rank)
  slices_S8x2304x4x2_S8x2304x4x1_0_0_0_1 : S8x2304x4x2.Slices ![0, 0, 0, 1] S8x2304x4x1
  concatenates_S8x2304x1_S8x2304x1_S8x2304x1_S8x2304x1_S8x2304x4_d2 : Shape.Concatenates [S8x2304x1, S8x2304x1, S8x2304x1, S8x2304x1] S8x2304x4 2
  bcast_S2304_S1x2304x1_1 : S2304.BroadcastsInDim S1x2304x1 (![1] : Fin 1 → Fin S1x2304x1.rank)
  bcast_S1x2304x1_S8x2304x4_0_1_2 : S1x2304x1.BroadcastsInDim S8x2304x4 (![0, 1, 2] : Fin 3 → Fin S8x2304x4.rank)
  bcast_S_S8x2304x2304 : S_.BroadcastsInDim S8x2304x2304 (![] : Fin 0 → Fin S8x2304x2304.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S_S1x2304x1 : S_.BroadcastsInDim S1x2304x1 (![] : Fin 0 → Fin S1x2304x1.rank)
  bcast_S8x1x1_S8x2304x4_0_1_2 : S8x1x1.BroadcastsInDim S8x2304x4 (![0, 1, 2] : Fin 3 → Fin S8x2304x4.rank)
  bcast_S8x2304x4_S8x2304x4x1_0_1_2 : S8x2304x4.BroadcastsInDim S8x2304x4x1 (![0, 1, 2] : Fin 3 → Fin S8x2304x4x1.rank)
  concatenates_S8x2304x4x1_S8x2304x4x1_S8x2304x4x1_S8x2304x4x3_d3 : Shape.Concatenates [S8x2304x4x1, S8x2304x4x1, S8x2304x4x1] S8x2304x4x3 3
  shapeCasts_S8x128x48x48_S8x128x2304 : S8x128x48x48.ShapeCasts S8x128x2304
  shapeCasts_S8x128x2304_S8x128x48x48 : S8x128x2304.ShapeCasts S8x128x48x48
  scatter_S8x2304x2304_S8x2304x4x3_S8x2304x4_n_012_012_3_wf : ScatterDims.WF S8x2304x2304 S8x2304x4x3 S8x2304x4 [] [0, 1, 2] [0, 1, 2] 3
  dot_S8x128x2304_S8x2304x2304_S8x128x2304_2_2_1_1_0_0_wf : DotDims.WF S8x128x2304 S8x2304x2304 S8x128x2304 [2] [2] [1] [1] [0] [0]

variable [Facts₀]

def scatter_S8x2304x2304_S8x2304x4x3_S8x2304x4_n_012_012_3 : ScatterDims S8x2304x2304 S8x2304x4x3 S8x2304x4 where
  updateWindowDims := []
  insertedWindowDims := [0, 1, 2]
  scatterDimsToOperandDims := [0, 1, 2]
  indexVectorDim := 3
  wf := scatter_S8x2304x2304_S8x2304x4x3_S8x2304x4_n_012_012_3_wf
def dot_S8x128x2304_S8x2304x2304_S8x128x2304_2_2_1_1_0_0 : DotDims S8x128x2304 S8x2304x2304 S8x128x2304 where
  lhsContracting := [2]
  rhsContracting := [2]
  lhsNonContracting := [1]
  rhsNonContracting := [1]
  lhsBatch := [0]
  rhsBatch := [0]
  wf := dot_S8x128x2304_S8x2304x2304_S8x128x2304_2_2_1_1_0_0_wf

class Facts : Prop extends Facts₀ where

variable [Facts]
-- ==== Proof.KernelFrame.lean ====
/-
  The program's frame, and what its run leaves in memory.

  The program is: the host operations that build the interpolation matrix and flatten the image, one
  launch of the product kernel over the grid 8 × 3, and the reshape of the result. At grid point (n, j)
  the kernel is handed the image block [n, 0:128, 0:2304] and the matrix block [n, 768·j : 768·(j+1), 0:2304]
  in its staging buffers, and leaves in the result's staging buffer the one value it stores — the
  product of the two blocks over their last axis —, which is then written back as the block
  [n, 0:128, 768·j : 768·(j+1)] of the result array.

  Here: the contents of the buffers when the launch is entered (`V`, a fold over the host operations that
  is never unfolded), each window's block at a grid point (`iblk`), the kernel body's triple
  (`product_body`), the launch's proof data (`dats`: after the body at a point each input buffer still
  holds its block and the result's buffer holds the stored product), the run of the whole program
  (`run_main`), and the frame: the two argument arrays end as launched (`frame`), since no host
  operation writes them and no window of the launch is written back to them.
-/
import proofs.«157045_j73959336837140_2_alg».proof.Proof.Gen.Kernel.Launch
import proofs.«157045_j73959336837140_2_alg».proof.Proof.Gen.Kernel.Skeleton
import proofs.«157045_j73959336837140_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- Core `c`'s buffer contents when the launch is entered: the launch memory after the host operations
    that build the matrix and flatten the image. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates: each determines its results. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the launch touches the launch's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result buffer, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes the image argument: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the sampling-grid argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- The reshape after the launch does not write the image argument, and it is no array of the launch: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the sampling-grid argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's staging buffer holds the image block of the point at every point — also at the points of a
    batch where it is not fetched again, the block index not having moved —, for any proof data whose array is the
    launch-entry contents and whose body leaves the block in place. -/
theorem before_image_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The matrix window's staging buffer holds the matrix block of the point (it is fetched at every point). -/
theorem before_matrix_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the whole program -/

/-- From a run whose final state has every buffer outside the launch's arrays as the reshape after the launch leaves
    it: the two arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The kernel body -/

/-- The body's three accesses: each a whole staging buffer. -/
abbrev wholeImage : Rect S1x128x2304 := Rect.unit (s := S1x128x2304) ![0, 0, 0] S1x128x2304.size inb_S1x128x2304_S1x128x2304_0_0_0
abbrev wholeMatrix : Rect S1x768x2304 := Rect.unit (s := S1x768x2304) ![0, 0, 0] S1x768x2304.size inb_S1x768x2304_S1x768x2304_0_0_0
abbrev wholeResult : Rect S1x128x768 := Rect.unit (s := S1x128x768) ![0, 0, 0] S1x128x768.size inb_S1x128x768_S1x128x768_0_0_0

/-- What the body leaves in the result's staging buffer, from the image block and the matrix block: its one store,
    of the product of the two loaded blocks, over the whole buffer. -/
def storedBlock (x0 : Vec F S1x128x2304 .f32) (x1 : Vec F S1x768x2304 .f32) : Vec F S1x128x768 .f32 :=
  View.canon [⟨wholeResult, k0_pay1 (View.ld x0 wholeImage) (View.ld x1 wholeMatrix)⟩]

/-- The one store covers the buffer. -/
theorem stored_cover (p0 : Vec F S1x128x768 .f32) (y : S1x128x768.Idx) :
    ∃ pc ∈ ([⟨wholeResult, p0⟩] : List (View.Piece (Elt F) S1x128x768 .f32)), y ∈ pc.1.set :=
  View.cover_of_tiled [⟨wholeResult, p0⟩] S1x128x768.size (by rfl) y

set_option maxHeartbeats 1000000 in
/-- The kernel body on whole staging buffers — the inputs' at contents `x0`, `x1`, the result's at anything — runs to the
    continuation with the inputs' as they were and the result's at the stored product: two loads, a load of the
    result buffer whose value is not used, one store. -/
theorem product_body (c : Dev nD) (E : Set ℕ) (i : grid0.Coords) (arg2 : Memref sig .tc .vmem S1x128x2304 .f32) (harg2 : arg2.IsWhole)
    (arg3 : Memref sig .tc .vmem S1x768x2304 .f32) (harg3 : arg3.IsWhole) (arg4 : Memref sig .tc .vmem S1x128x768 .f32) (harg4 : arg4.IsWhole)
    (x0 : Vec F S1x128x2304 .f32) (x1 : Vec F S1x768x2304 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (storedBlock x0 x1)) -∗ K ⟨⟩))
      ⊢ wp frame (wpE (defs₀ (F := F)) Variants.none c none) E (cc0__remap_kernel i arg2 harg2 arg3 harg3 arg4 harg4) K := by
  simp only [cc0__remap_kernel_eq_skeleton]; unfold cc0__remap_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-! ## The launch's proof data -/

/-- On core `c`: the arrays as the launch finds them; after the body at point `t` each input's buffer still at its
    block and the result's at the stored product of the two blocks; the invariant is the buffers the kernel does not
    name, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => storedBlock (iblk m c 0 t) (iblk m c 1 t)
  Φ _ := Pipeline.ΦA spec0 c
  q _ := fullShare
  owed _ := 0

/-- The proof data's arrays are the launch-entry contents (projected, never unfolded). -/
theorem A_eq (c : Dev nD) (w : Fin cfg0.W) : (dats m 0 c).A w = V m c (Pipeline.arrRef spec0 w) := by
  dsimp only [dats]

/-- What the body leaves, window by window. -/
theorem after_image (c : Dev nD) (t : Fin cfg0.N) : (dats m 0 c).after 0 t = iblk m c 0 t := by dsimp only [dats]
theorem after_matrix (c : Dev nD) (t : Fin cfg0.N) : (dats m 0 c).after 1 t = iblk m c 1 t := by dsimp only [dats]
theorem after_result (c : Dev nD) (t : Fin cfg0.N) : (dats m 0 c).after 2 t = storedBlock (iblk m c 0 t) (iblk m c 1 t) := by dsimp only [dats]

/-- Each input's current staging buffer holds its block at every point. -/
theorem before_image (c : Dev nD) (t : Fin cfg0.N) (d) : (dats m 0 c).before 0 t d = iblk m c 0 t :=
  before_image_of m (dats m 0 c) (A_eq m c 0) (after_image m c) t d
theorem before_matrix (c : Dev nD) (t : Fin cfg0.N) (d) : (dats m 0 c).before 1 t d = iblk m c 1 t :=
  before_matrix_of m (dats m 0 c) (A_eq m c 1) (after_matrix m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `product_body` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_image, before_matrix]
  rw [show (dats m 0 c).Φ t.succ = (dats m 0 c).Φ t.castSucc from rfl,
    show (dats m 0 c).owesAt () t.succ = (dats m 0 c).owesAt () t.castSucc from rfl,
    after_image, after_matrix, after_result]
  iintro ⟨HΦ, Ho, ⟨%d0, H0⟩, ⟨%d1, H1⟩, ⟨%d2, H2⟩⟩
  iapply (product_body c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float instance, from any memory with zero counters: every weakly fair execution of the program terminates,
    and every final state has each array of the launch at what the proof data say (the result array: the launch-entry
    contents overwritten by the stored block of each point) and every other buffer as the reshape after the launch
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KernelIdealFrame.lean ====
/-
  The program's frame, and what its run leaves in memory.

  The program is: the host operations that build the interpolation matrix and flatten the image, one
  launch of the product kernel over the grid 8 × 3, and the reshape of the result. At grid point (n, j)
  the kernel is handed the image block [n, 0:128, 0:2304] and the matrix block [n, 768·j : 768·(j+1), 0:2304]
  in its staging buffers, and leaves in the result's staging buffer the one value it stores — the
  product of the two blocks over their last axis —, which is then written back as the block
  [n, 0:128, 768·j : 768·(j+1)] of the result array.

  Here: the contents of the buffers when the launch is entered (`V`, a fold over the host operations that
  is never unfolded), each window's block at a grid point (`iblk`), the kernel body's triple
  (`product_body`), the launch's proof data (`dats`: after the body at a point each input buffer still
  holds its block and the result's buffer holds the stored product), the run of the whole program
  (`run_main`), and the frame: the two argument arrays end as launched (`frame`), since no host
  operation writes them and no window of the launch is written back to them.
-/
import proofs.«157045_j73959336837140_2_alg».proof.Proof.Gen.KernelIdeal.Launch
import proofs.«157045_j73959336837140_2_alg».proof.Proof.Gen.KernelIdeal.Skeleton
import proofs.«157045_j73959336837140_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- Core `c`'s buffer contents when the launch is entered: the launch memory after the host operations
    that build the matrix and flatten the image. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates: each determines its results. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the launch, the launch, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the launch touches the launch's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result buffer, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the launch writes the image argument: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- Nor the sampling-grid argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- The reshape after the launch does not write the image argument, and it is no array of the launch: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the sampling-grid argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's staging buffer holds the image block of the point at every point — also at the points of a
    batch where it is not fetched again, the block index not having moved —, for any proof data whose array is the
    launch-entry contents and whose body leaves the block in place. -/
theorem before_image_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The matrix window's staging buffer holds the matrix block of the point (it is fetched at every point). -/
theorem before_matrix_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the whole program -/

/-- From a run whose final state has every buffer outside the launch's arrays as the reshape after the launch leaves
    it: the two arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The kernel body -/

/-- The body's three accesses: each a whole staging buffer. -/
abbrev wholeImage : Rect S1x128x2304 := Rect.unit (s := S1x128x2304) ![0, 0, 0] S1x128x2304.size inb_S1x128x2304_S1x128x2304_0_0_0
abbrev wholeMatrix : Rect S1x768x2304 := Rect.unit (s := S1x768x2304) ![0, 0, 0] S1x768x2304.size inb_S1x768x2304_S1x768x2304_0_0_0
abbrev wholeResult : Rect S1x128x768 := Rect.unit (s := S1x128x768) ![0, 0, 0] S1x128x768.size inb_S1x128x768_S1x128x768_0_0_0

/-- What the body leaves in the result's staging buffer, from the image block and the matrix block: its one store,
    of the product of the two loaded blocks, over the whole buffer. -/
def storedBlock (x0 : Vec F S1x128x2304 .f32) (x1 : Vec F S1x768x2304 .f32) : Vec F S1x128x768 .f32 :=
  View.canon [⟨wholeResult, k0_pay1 (View.ld x0 wholeImage) (View.ld x1 wholeMatrix)⟩]

/-- The one store covers the buffer. -/
theorem stored_cover (p0 : Vec F S1x128x768 .f32) (y : S1x128x768.Idx) :
    ∃ pc ∈ ([⟨wholeResult, p0⟩] : List (View.Piece (Elt F) S1x128x768 .f32)), y ∈ pc.1.set :=
  View.cover_of_tiled [⟨wholeResult, p0⟩] S1x128x768.size (by rfl) y

set_option maxHeartbeats 1000000 in
/-- The kernel body on whole staging buffers — the inputs' at contents `x0`, `x1`, the result's at anything — runs to the
    continuation with the inputs' as they were and the result's at the stored product: two loads, a load of the
    result buffer whose value is not used, one store. -/
theorem product_body (c : Dev nD) (E : Set ℕ) (i : grid0.Coords) (arg2 : Memref sig .tc .vmem S1x128x2304 .f32) (harg2 : arg2.IsWhole)
    (arg3 : Memref sig .tc .vmem S1x768x2304 .f32) (harg3 : arg3.IsWhole) (arg4 : Memref sig .tc .vmem S1x128x768 .f32) (harg4 : arg4.IsWhole)
    (x0 : Vec F S1x128x2304 .f32) (x1 : Vec F S1x768x2304 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (storedBlock x0 x1)) -∗ K ⟨⟩))
      ⊢ wp frame (wpE (defs₀ (F := F)) Variants.none c none) E (cc0__remap_kernel i arg2 harg2 arg3 harg3 arg4 harg4) K := by
  simp only [cc0__remap_kernel_eq_skeleton]; unfold cc0__remap_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-! ## The launch's proof data -/

/-- On core `c`: the arrays as the launch finds them; after the body at point `t` each input's buffer still at its
    block and the result's at the stored product of the two blocks; the invariant is the buffers the kernel does not
    name, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => storedBlock (iblk m c 0 t) (iblk m c 1 t)
  Φ _ := Pipeline.ΦA spec0 c
  q _ := fullShare
  owed _ := 0

/-- The proof data's arrays are the launch-entry contents (projected, never unfolded). -/
theorem A_eq (c : Dev nD) (w : Fin cfg0.W) : (dats m 0 c).A w = V m c (Pipeline.arrRef spec0 w) := by
  dsimp only [dats]

/-- What the body leaves, window by window. -/
theorem after_image (c : Dev nD) (t : Fin cfg0.N) : (dats m 0 c).after 0 t = iblk m c 0 t := by dsimp only [dats]
theorem after_matrix (c : Dev nD) (t : Fin cfg0.N) : (dats m 0 c).after 1 t = iblk m c 1 t := by dsimp only [dats]
theorem after_result (c : Dev nD) (t : Fin cfg0.N) : (dats m 0 c).after 2 t = storedBlock (iblk m c 0 t) (iblk m c 1 t) := by dsimp only [dats]

/-- Each input's current staging buffer holds its block at every point. -/
theorem before_image (c : Dev nD) (t : Fin cfg0.N) (d) : (dats m 0 c).before 0 t d = iblk m c 0 t :=
  before_image_of m (dats m 0 c) (A_eq m c 0) (after_image m c) t d
theorem before_matrix (c : Dev nD) (t : Fin cfg0.N) (d) : (dats m 0 c).before 1 t d = iblk m c 1 t :=
  before_matrix_of m (dats m 0 c) (A_eq m c 1) (after_matrix m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `product_body` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_image, before_matrix]
  rw [show (dats m 0 c).Φ t.succ = (dats m 0 c).Φ t.castSucc from rfl,
    show (dats m 0 c).owesAt () t.succ = (dats m 0 c).owesAt () t.castSucc from rfl,
    after_image, after_matrix, after_result]
  iintro ⟨HΦ, Ho, ⟨%d0, H0⟩, ⟨%d1, H1⟩, ⟨%d2, H2⟩⟩
  iapply (product_body c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float instance, from any memory with zero counters: every weakly fair execution of the program terminates,
    and every final state has each array of the launch at what the proof data say (the result array: the launch-entry
    contents overwritten by the stored block of each point) and every other buffer as the reshape after the launch
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.KernelProduct.lean ====
/-
  The kernel body's stored value read at an index: the product of the two loaded blocks, the second contracted on its
  last axis, as a finite sum over the extended reals.
-/
import proofs.«157045_j73959336837140_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Product

open Cert.KernelIdeal Cert.KernelIdeal.Gen Idealize.ShloMosaic Idealize.ShloMosaic.ValueIdx

/-- The left operand's index of the [128, 2304] by [768, 2304] product at output (c, q) and contraction position k
    is (c, k). -/
theorem lhsIdx_eq (c : Fin 128) (q : Fin 768) (k : Fin 2304) :
    dot_S128x2304_S768x2304_S128x768_1_1_0_0_n_n.lhsIdx (ix2 c q) ((contrEquiv1 dot_S128x2304_S768x2304_S128x768_1_1_0_0_n_n 2304 rfl rfl).symm k) = ix2 c k := by
  have ck := contrEquiv1_symm_val dot_S128x2304_S768x2304_S128x768_1_1_0_0_n_n 2304 rfl rfl k
  funext ax; apply Fin.ext
  match ax with
  | ⟨0, _⟩ => simp [DotDims.lhsIdx, dot_S128x2304_S768x2304_S128x768_1_1_0_0_n_n]; rfl
  | ⟨1, _⟩ => simp [DotDims.lhsIdx, dot_S128x2304_S768x2304_S128x768_1_1_0_0_n_n]; exact ck

/-- The right operand's index there is (q, k): the right operand is contracted on its last axis too. -/
theorem rhsIdx_eq (c : Fin 128) (q : Fin 768) (k : Fin 2304) :
    dot_S128x2304_S768x2304_S128x768_1_1_0_0_n_n.rhsIdx (ix2 c q) ((contrEquiv1 dot_S128x2304_S768x2304_S128x768_1_1_0_0_n_n 2304 rfl rfl).symm k) = ix2 q k := by
  have ck := contrEquiv1_symm_val dot_S128x2304_S768x2304_S128x768_1_1_0_0_n_n 2304 rfl rfl k
  funext ax; apply Fin.ext
  match ax with
  | ⟨0, _⟩ => simp [DotDims.rhsIdx, dot_S128x2304_S768x2304_S128x768_1_1_0_0_n_n]; rfl
  | ⟨1, _⟩ => simp [DotDims.rhsIdx, dot_S128x2304_S768x2304_S128x768_1_1_0_0_n_n]; exact ck

/-- The product into the zero accumulator, read at (c, q): the sum over the contracted coordinate. -/
theorem matmul_zero_apply (a : FVec Ideal S128x2304 .f32) (b : FVec Ideal S768x2304 .f32) (c : Fin 128) (q : Fin 768) :
    matmul dot_S128x2304_S768x2304_S128x768_1_1_0_0_n_n none a b (constant S128x768 .f32 0x00000000#32) (ix2 c q)
      = ∑ k : Fin 2304, a (ix2 c k) * b (ix2 q k) := by
  refine (Ideal.matmul_constant_zero_apply dot_S128x2304_S768x2304_S128x768_1_1_0_0_n_n none a b (ix2 c q)).trans ?_
  rw [← Equiv.sum_comp (contrEquiv1 dot_S128x2304_S768x2304_S128x768_1_1_0_0_n_n 2304 rfl rfl).symm]
  refine Finset.sum_congr rfl fun k _ => ?_
  rw [lhsIdx_eq, rhsIdx_eq]

/-- The body's stored value at (0, c, q) is the sum over k of the first block at (0, c, k) times the second block at
    (0, q, k): the two inner casts drop the unit axis, the outer cast puts it back. -/
theorem payload_apply (x0 : Vec Ideal S1x128x2304 .f32) (x1 : Vec Ideal S1x768x2304 .f32) (c : Fin 128) (q : Fin 768) :
    k0_pay1 (F := Ideal) x0 x1 (ix3 (0 : Fin 1) c q) = ∑ k : Fin 2304, x0 (ix3 (0 : Fin 1) c k) * x1 (ix3 (0 : Fin 1) q k) := by
  unfold k0_pay1
  refine (shapeCast_ab_1ab_apply _ shapeCasts_S128x768_S1x128x768 (0 : Fin 1) c q).trans ?_
  refine (matmul_zero_apply _ _ c q).trans ?_
  refine Finset.sum_congr rfl fun k _ => ?_
  rw [shapeCast_1ab_ab_apply, shapeCast_1ab_ab_apply]

end Cert.KernelIdeal.Product

end
-- ==== Proof.Remap.lean ====
/-
  The resampled image as one function of the flattened image `x` and the interpolation matrix `w`:
  out[n, c, q] = Σ_k x[n, c, k] · w[n, q, k], a finite sum on the extended reals.
-/
import Idealize.ShloMosaic.PureOps.Ideal
import Idealize.ShloMosaic.Lib.ValueIdx

noncomputable section

namespace Cert.Remap

open Idealize.ShloMosaic Idealize.ShloMosaic.ValueIdx

/-- out[n, c, q] = Σ_k x[n, c, k] · w[n, q, k]. -/
def remap (x : (⟨3, ![8, 128, 2304]⟩ : Shape).Idx → EReal) (w : (⟨3, ![8, 2304, 2304]⟩ : Shape).Idx → EReal) :
    (⟨3, ![8, 128, 2304]⟩ : Shape).Idx → EReal :=
  fun i => ∑ k : Fin 2304, x (ix3 (i 0) (i 1) k) * w (ix3 (i 0) (i 2) k)

end Cert.Remap

end
-- ==== Proof.KernelValue.lean ====
/-
  What the kernel program computes, at the extended reals.

  At grid point (n, j) the body stores the product of the image block [n, 0:128, 0:2304] and the matrix block
  [n, 768·j : 768·(j+1), 0:2304] over their last axis, and the launch writes it back as the block
  [n, 0:128, 768·j : 768·(j+1)] of the result array. The 24 blocks tile the result array, and each is the
  restriction of ONE function of the flattened image `x` and the matrix `w` — out[n, c, q] = Σ_k x[n, c, k] · w[n, q, k]
  (`Cert.Remap.remap`) — because entry (c, q') of the block's product is the sum over k of image[n, c, k] times
  matrix[n, 768·j + q', k]. So the result array ends holding `remap x w`, and the program's result is its reshape.
-/
import proofs.«157045_j73959336837140_2_alg».proof.Proof.KernelIdealFrame
import proofs.«157045_j73959336837140_2_alg».proof.Proof.KernelProduct
import proofs.«157045_j73959336837140_2_alg».proof.Proof.Remap
import Idealize.ShloMosaic.Lib.Pipeline.Value
import Idealize.ShloMosaic.Lib.ValueIdx
import Idealize.ShloMosaic.Lib.StableHlo.Run

set_option maxRecDepth 16384

noncomputable section

namespace Cert.KernelIdeal.ProductValue

open Cert.KernelIdeal Cert.KernelIdeal.Gen Cert.KernelIdeal.Hand Cert.KernelIdeal.Product Cert.Remap
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem off_zero : (![0, 0, 0] : Fin 3 → Nat) = fun _ => 0 := funext fun a => by fin_cases a <;> rfl

/-- The block indices at grid point t = (n, j): the image's is (n, 0, 0), the matrix's (n, j, 0), the result's (n, 0, j). -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0
    ∧ win0_2.index t (1 : Fin 3) = 0 ∧ win0_2.index t (0 : Fin 3) ≤ 7 ∧ win0_2.index t (2 : Fin 3) ≤ 2 :=
  (by decide +kernel : ∀ t : Fin grid0.N, _)

/-- Every block (n, 0, j) of the result array is some grid point's. -/
theorem idx_onto : ∀ (n : Fin 8) (j : Fin 3), ∃ t : Fin cfg0.N, win0_2.index t = ![n.val, 0, j.val] :=
  (by decide +kernel : ∀ (n : Fin 8) (j : Fin 3), ∃ t : Fin grid0.N, win0_2.index t = ![n.val, 0, j.val])

/-- What grid point `t` writes back is block `t` of `remap x w`, `x` the flattened image and `w` the matrix as the launch
    finds them: entry (0, c, q) of the stored product is the sum over k of the image block at (0, c, k) times the matrix
    block at (0, q, k), and those are the arrays at (n, c, k) and (n, 768·j + q, k), where (n, c, 768·j + q) is the
    entry's place in the result array. -/
theorem flushed_eq (c : Dev nD) (t : Fin cfg0.N) :
    (dats m 0 c).flushed 2 t = ((cfg0.win 2).blk t).view.read (Elt Ideal) (remap (V m c main_v101) (V m c main_v100)) := by
  show (cfg0.win 2).cut (grid0.coords t) ((dats m 0 c).after 2 t) = _
  rw [after_result]
  unfold storedBlock
  rw [View.canon_unit_zero off_zero]
  simp only [View.ld_unit_zero (S := S1x128x2304) off_zero, View.ld_unit_zero (S := S1x768x2304) off_zero]
  obtain ⟨e0, e1, e2, e3, e4, e5, e6, e7, e8⟩ := idx_facts t
  funext y
  obtain ⟨a, cc, q, rfl⟩ : ∃ (a : Fin 1) (cc : Fin 128) (q : Fin 768), y = ix3 a cc q := ⟨y 0, y 1, y 2, eq_ix3 y⟩
  obtain rfl : a = 0 := Subsingleton.elim _ _
  show k0_pay1 (F := Ideal) (iblk m c 0 t) (iblk m c 1 t) (ix3 (0 : Fin 1) cc q)
    = remap (V m c main_v101) (V m c main_v100) (((cfg0.win 2).blk t).view.emb (ix3 (0 : Fin 1) cc q))
  refine (payload_apply (iblk m c 0 t) (iblk m c 1 t) cc q).trans ?_
  refine Finset.sum_congr rfl fun k _ => ?_
  have hx : ((cfg0.win 0).blk t).view.emb (ix3 (0 : Fin 1) cc k)
      = ix3 ((((cfg0.win 2).blk t).view.emb (ix3 (0 : Fin 1) cc q)) 0)
        ((((cfg0.win 2).blk t).view.emb (ix3 (0 : Fin 1) cc q)) 1) k := by
    funext ax; apply Fin.ext
    match ax with
    | ⟨0, _⟩ => show win0_0.index t (0 : Fin 3) * 1 + 1 * 0 = win0_2.index t (0 : Fin 3) * 1 + 1 * 0; omega
    | ⟨1, _⟩ => show win0_0.index t (1 : Fin 3) * 128 + 1 * cc.val = win0_2.index t (1 : Fin 3) * 128 + 1 * cc.val; omega
    | ⟨2, _⟩ => show win0_0.index t (2 : Fin 3) * 2304 + 1 * k.val = k.val; omega
  have hw : ((cfg0.win 1).blk t).view.emb (ix3 (0 : Fin 1) q k)
      = ix3 ((((cfg0.win 2).blk t).view.emb (ix3 (0 : Fin 1) cc q)) 0)
        ((((cfg0.win 2).blk t).view.emb (ix3 (0 : Fin 1) cc q)) 2) k := by
    funext ax; apply Fin.ext
    match ax with
    | ⟨0, _⟩ => show win0_1.index t (0 : Fin 3) * 1 + 1 * 0 = win0_2.index t (0 : Fin 3) * 1 + 1 * 0; omega
    | ⟨1, _⟩ => show win0_1.index t (1 : Fin 3) * 768 + 1 * q.val = win0_2.index t (2 : Fin 3) * 768 + 1 * q.val; omega
    | ⟨2, _⟩ => show win0_1.index t (2 : Fin 3) * 2304 + 1 * k.val = k.val; omega
  have key : ∀ (X : S8x128x2304.Idx → EReal) (W : S8x2304x2304.Idx → EReal) (i0 i0' : S8x128x2304.Idx)
      (i1 i1' : S8x2304x2304.Idx), i0 = i0' → i1 = i1' → X i0 * W i1 = X i0' * W i1' := by
    intro X W i0 i0' i1 i1' h0 h1; rw [h0, h1]
  exact key (V m c main_v101) (V m c main_v100) _ _ _ _ hx hw

/-- An index of the result array is in point `t`'s block iff each coordinate is in the block's range on its axis. -/
theorem mem_blk (t : Fin cfg0.N) (i : S8x128x2304.Idx) :
    i ∈ ((cfg0.win 2).blk t).view.set ↔ ∀ a : Fin 3, win0_2.index t a * S1x128x768.size a ≤ (i a).val
      ∧ (i a).val < win0_2.index t a * S1x128x768.size a + S1x128x768.size a := by
  show i ∈ ((View.whole main_v102).slice (win0_2.rect t)).set ↔ _
  rw [View.set_slice_whole, Rect.mem_set_unit]
  exact Iff.rfl

/-- The blocks tile the result array: the entry (n, c, p) lies in the block of the point whose block index is
    (n, 0, p / 768). -/
theorem cover (i : S8x128x2304.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 2304 := (i 2).isLt
  obtain ⟨t, ht⟩ := idx_onto ⟨(i 0).val, hi0⟩ ⟨(i 2).val / 768, by omega⟩
  have q0 : win0_2.index t (0 : Fin 3) = (i 0).val := congrFun ht 0
  have q1 : win0_2.index t (1 : Fin 3) = 0 := congrFun ht 1
  have q2 : win0_2.index t (2 : Fin 3) = (i 2).val / 768 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 768 ≤ (i 2).val ∧ (i 2).val < win0_2.index t (2 : Fin 3) * 768 + 768; omega

/-- So the result array ends holding `remap x w`. -/
theorem final (c : Dev nD) : (dats m 0 c).arrAt 2 cfg0.N = remap (V m c main_v101) (V m c main_v100) :=
  (dats m 0 c).arrAt_eq_of_cover 2 (remap (V m c main_v101) (V m c main_v100)) (fun t _ => flushed_eq m c t) cover

/-- The program's result: the reshape after the launch, of the result array. -/
theorem result_eq (c : Dev nD) :
    Pipeline.afterTail₀ cfgs (dats m) 0 (V0 m) [hostOps1] c main_v103
      = shapeCast S8x128x48x48 (remap (V m c main_v101) (V m c main_v100)) shapeCasts_S8x128x2304_S8x128x48x48 := by
  unfold Pipeline.afterTail₀
  show StableHlo.after hostOps1 _ (Proc.devRef .tc main_v103) = _
  after_results
  rw [(Pipeline.withArrays_arr spec0 launch0.win.arr_inj c _ _ 2).trans (final m c)]
  rfl

/-- The run of the kernel program, read: the result is the reshape of `remap x w`, the two arguments end as launched. -/
theorem run : θ_run defs (onTc (τ := τ) (main (F := Ideal))) ⟨m, fun _ => 0, ρ⟩ fun r => ∀ c : Dev nD,
      r.2.mem ((c.tc : Thread nD τ).loc main_v103)
        = shapeCast S8x128x48x48 (remap (V m c main_v101) (V m c main_v100)) shapeCasts_S8x128x2304_S8x128x48x48
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v103 (Pipeline.mem_restRefs_of main_v103 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ProductValue

end
-- ==== Proof.ReferenceOps.lean ====
/- The reference program's host operations as lists, in program order: the operations that build the
  interpolation matrix and flatten the image (`pre`), then the batched product and the reshape of its
  result (`tail`). The two calls of the clipping function are listed as that function's own operations
  on each call's buffers. `result` is what the last two operations compute from the flattened image and
  the matrix.
-/
import proofs.«157045_j73959336837140_2_alg».proof.Proof.Gen.ReferenceIdeal
import Idealize.ShloMosaic.Lib.StableHlo.Run

set_option maxRecDepth 1764

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 38 host operations of @main, in order. -/
abbrev hostOps0 : List (HloOp τ sig (Elt F)) :=
  ( StableHlo.nullary main_cst (fun i => FloatOps.ofBits .f32 (lit0 (S4x2.rowMajor i)))
  :: StableHlo.unary main_arg1 main_v0 ((extractStridedSlice S8x48x48x1 ![0, 0, 0, 0] · slices_S8x48x48x2_S8x48x48x1_0_0_0_0) : (⟨S8x48x48x2, .f32⟩ : BufTy).Contents (Elt F) → (⟨S8x48x48x1, .f32⟩ : BufTy).Contents (Elt F))
  :: StableHlo.reshape main_v0 main_v1 rfl shapeCasts_S8x48x48x1_S8x48x48
  :: StableHlo.nullary main_cst_0 (constant S_ .f32 0xBF000000#32)
  :: StableHlo.unary main_cst_0 main_v2 (broadcastInDim S8x48x48 ![] bcast_S_S8x48x48 : (⟨S_, .f32⟩ : BufTy).Contents (Elt F) → (⟨S8x48x48, .f32⟩ : BufTy).Contents (Elt F))
  :: StableHlo.binary main_v1 main_v2 main_v3 (cmpf .oge : (⟨S8x48x48, .f32⟩ : BufTy).Contents (Elt F) → (⟨S8x48x48, .f32⟩ : BufTy).Contents (Elt F) → (⟨S8x48x48, .i1⟩ : BufTy).Contents (Elt F))
  :: StableHlo.nullary main_c (constantI S_ 1 1#1)
  :: StableHlo.binary main_v3 main_c main_v4 ((fun x v => Host.reduce IntOp.andi x v reducesTo_S8x48x48_S48x48_d0 h_S_) : (⟨S8x48x48, .i1⟩ : BufTy).Contents (Elt F) → (⟨S_, .i1⟩ : BufTy).Contents (Elt F) → (⟨S48x48, .i1⟩ : BufTy).Contents (Elt F))
  :: StableHlo.unary main_arg1 main_v5 ((extractStridedSlice S8x48x48x1 ![0, 0, 0, 0] · slices_S8x48x48x2_S8x48x48x1_0_0_0_0) : (⟨S8x48x48x2, .f32⟩ : BufTy).Contents (Elt F) → (⟨S8x48x48x1, .f32⟩ : BufTy).Contents (Elt F))
  :: StableHlo.reshape main_v5 main_v6 rfl shapeCasts_S8x48x48x1_S8x48x48
  :: StableHlo.nullary main_cst_1 (constant S_ .f32 0x423E0000#32)
  :: StableHlo.unary main_cst_1 main_v7 (broadcastInDim S8x48x48 ![] bcast_S_S8x48x48 : (⟨S_, .f32⟩ : BufTy).Contents (Elt F) → (⟨S8x48x48, .f32⟩ : BufTy).Contents (Elt F))
  :: StableHlo.binary main_v6 main_v7 main_v8 (cmpf .ole : (⟨S8x48x48, .f32⟩ : BufTy).Contents (Elt F) → (⟨S8x48x48, .f32⟩ : BufTy).Contents (Elt F) → (⟨S8x48x48, .i1⟩ : BufTy).Contents (Elt F))
  :: StableHlo.nullary main_c_2 (constantI S_ 1 1#1)
  :: StableHlo.binary main_v8 main_c_2 main_v9 ((fun x v => Host.reduce IntOp.andi x v reducesTo_S8x48x48_S48x48_d0 h_S_) : (⟨S8x48x48, .i1⟩ : BufTy).Contents (Elt F) → (⟨S_, .i1⟩ : BufTy).Contents (Elt F) → (⟨S48x48, .i1⟩ : BufTy).Contents (Elt F))
  :: StableHlo.binary main_v4 main_v9 main_v10 (andi : (⟨S48x48, .i1⟩ : BufTy).Contents (Elt F) → (⟨S48x48, .i1⟩ : BufTy).Contents (Elt F) → (⟨S48x48, .i1⟩ : BufTy).Contents (Elt F))
  :: StableHlo.unary main_arg1 main_v11 ((extractStridedSlice S8x48x48x1 ![0, 0, 0, 1] · slices_S8x48x48x2_S8x48x48x1_0_0_0_1) : (⟨S8x48x48x2, .f32⟩ : BufTy).Contents (Elt F) → (⟨S8x48x48x1, .f32⟩ : BufTy).Contents (Elt F))
  :: StableHlo.reshape main_v11 main_v12 rfl shapeCasts_S8x48x48x1_S8x48x48
  :: StableHlo.nullary main_cst_3 (constant S_ .f32 0xBF000000#32)
  :: StableHlo.unary main_cst_3 main_v13 (broadcastInDim S8x48x48 ![] bcast_S_S8x48x48 : (⟨S_, .f32⟩ : BufTy).Contents (Elt F) → (⟨S8x48x48, .f32⟩ : BufTy).Contents (Elt F))
  :: StableHlo.binary main_v12 main_v13 main_v14 (cmpf .oge : (⟨S8x48x48, .f32⟩ : BufTy).Contents (Elt F) → (⟨S8x48x48, .f32⟩ : BufTy).Contents (Elt F) → (⟨S8x48x48, .i1⟩ : BufTy).Contents (Elt F))
  :: StableHlo.nullary main_c_4 (constantI S_ 1 1#1)
  :: StableHlo.binary main_v14 main_c_4 main_v15 ((fun x v => Host.reduce IntOp.andi x v reducesTo_S8x48x48_S48x48_d0 h_S_) : (⟨S8x48x48, .i1⟩ : BufTy).Contents (Elt F) → (⟨S_, .i1⟩ : BufTy).Contents (Elt F) → (⟨S48x48, .i1⟩ : BufTy).Contents (Elt F))
  :: StableHlo.unary main_arg1 main_v16 ((extractStridedSlice S8x48x48x1 ![0, 0, 0, 1] · slices_S8x48x48x2_S8x48x48x1_0_0_0_1) : (⟨S8x48x48x2, .f32⟩ : BufTy).Contents (Elt F) → (⟨S8x48x48x1, .f32⟩ : BufTy).Contents (Elt F))
  :: StableHlo.reshape main_v16 main_v17 rfl shapeCasts_S8x48x48x1_S8x48x48
  :: StableHlo.nullary main_cst_5 (constant S_ .f32 0x423E0000#32)
  :: StableHlo.unary main_cst_5 main_v18 (broadcastInDim S8x48x48 ![] bcast_S_S8x48x48 : (⟨S_, .f32⟩ : BufTy).Contents (Elt F) → (⟨S8x48x48, .f32⟩ : BufTy).Contents (Elt F))
  :: StableHlo.binary main_v17 main_v18 main_v19 (cmpf .ole : (⟨S8x48x48, .f32⟩ : BufTy).Contents (Elt F) → (⟨S8x48x48, .f32⟩ : BufTy).Contents (Elt F) → (⟨S8x48x48, .i1⟩ : BufTy).Contents (Elt F))
  :: StableHlo.nullary main_c_6 (constantI S_ 1 1#1)
  :: StableHlo.binary main_v19 main_c_6 main_v20 ((fun x v => Host.reduce IntOp.andi x v reducesTo_S8x48x48_S48x48_d0 h_S_) : (⟨S8x48x48, .i1⟩ : BufTy).Contents (Elt F) → (⟨S_, .i1⟩ : BufTy).Contents (Elt F) → (⟨S48x48, .i1⟩ : BufTy).Contents (Elt F))
  :: StableHlo.binary main_v15 main_v20 main_v21 (andi : (⟨S48x48, .i1⟩ : BufTy).Contents (Elt F) → (⟨S48x48, .i1⟩ : BufTy).Contents (Elt F) → (⟨S48x48, .i1⟩ : BufTy).Contents (Elt F))
  :: StableHlo.binary main_v10 main_v21 main_v22 (andi : (⟨S48x48, .i1⟩ : BufTy).Contents (Elt F) → (⟨S48x48, .i1⟩ : BufTy).Contents (Elt F) → (⟨S48x48, .i1⟩ : BufTy).Contents (Elt F))
  :: StableHlo.reshape main_v22 main_v23 rfl shapeCasts_S48x48_S2304
  :: StableHlo.reshape main_arg1 main_v24 rfl shapeCasts_S8x48x48x2_S8x2304x2
  :: StableHlo.unary main_v24 main_v25 ((extractStridedSlice S8x2304x1 ![0, 0, 0] · slices_S8x2304x2_S8x2304x1_0_0_0) : (⟨S8x2304x2, .f32⟩ : BufTy).Contents (Elt F) → (⟨S8x2304x1, .f32⟩ : BufTy).Contents (Elt F))
  :: StableHlo.reshape main_v25 main_v26 rfl shapeCasts_S8x2304x1_S8x2304
  :: StableHlo.nullary main_cst_7 (constant S_ .f32 0x3727C5AC#32)
  :: StableHlo.nullary main_cst_8 (constant S_ .f32 0x423BFFFD#32)
  :: [] )
/-- 6 host operations of @clip (main_call0), in order. -/
abbrev hostOps0_1 : List (HloOp τ sig (Elt F)) :=
  [ StableHlo.TRef.unary (.of main_cst_7 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8x2304, .f32⟩) (broadcastInDim S8x2304 ![] bcast_S_S8x2304),
    StableHlo.TRef.binary (.of main_call0_v1 : StableHlo.TRef sig ⟨S8x2304, .f32⟩) (.of main_v26 : StableHlo.TRef sig ⟨S8x2304, .f32⟩) (.of main_call0_v2 : StableHlo.TRef sig ⟨S8x2304, .f32⟩) maximumf,
    StableHlo.TRef.unary (.of main_cst_8 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S8x2304, .f32⟩) (broadcastInDim S8x2304 ![] bcast_S_S8x2304),
    StableHlo.TRef.binary (.of main_call0_v4 : StableHlo.TRef sig ⟨S8x2304, .f32⟩) (.of main_call0_v2 : StableHlo.TRef sig ⟨S8x2304, .f32⟩) (.of main_v27 : StableHlo.TRef sig ⟨S8x2304, .f32⟩) minimumf ]
/-- 4 host operations of @main, in order. -/
abbrev hostOps0_2 : List (HloOp τ sig (Elt F)) :=
  [ StableHlo.unary main_v24 main_v28 ((extractStridedSlice S8x2304x1 ![0, 0, 1] · slices_S8x2304x2_S8x2304x1_0_0_1) : (⟨S8x2304x2, .f32⟩ : BufTy).Contents (Elt F) → (⟨S8x2304x1, .f32⟩ : BufTy).Contents (Elt F)),
    StableHlo.reshape main_v28 main_v29 rfl shapeCasts_S8x2304x1_S8x2304,
    StableHlo.nullary main_cst_9 (constant S_ .f32 0x3727C5AC#32),
    StableHlo.nullary main_cst_10 (constant S_ .f32 0x423BFFFD#32) ]
/-- 6 host operations of @clip (main_call1), in order. -/
abbrev hostOps0_3 : List (HloOp τ sig (Elt F)) :=
  [ StableHlo.TRef.unary (.of main_cst_9 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8x2304, .f32⟩) (broadcastInDim S8x2304 ![] bcast_S_S8x2304),
    StableHlo.TRef.binary (.of main_call1_v1 : StableHlo.TRef sig ⟨S8x2304, .f32⟩) (.of main_v29 : StableHlo.TRef sig ⟨S8x2304, .f32⟩) (.of main_call1_v2 : StableHlo.TRef sig ⟨S8x2304, .f32⟩) maximumf,
    StableHlo.TRef.unary (.of main_cst_10 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S8x2304, .f32⟩) (broadcastInDim S8x2304 ![] bcast_S_S8x2304),
    StableHlo.TRef.binary (.of main_call1_v4 : StableHlo.TRef sig ⟨S8x2304, .f32⟩) (.of main_call1_v2 : StableHlo.TRef sig ⟨S8x2304, .f32⟩) (.of main_v30 : StableHlo.TRef sig ⟨S8x2304, .f32⟩) minimumf ]
set_option maxHeartbeats 40000000 in  -- a long stretch: its list (or the term over it) exceeds the default budget
/-- 83 host operations of @main, in order. -/
abbrev hostOps0_4 : List (HloOp τ sig (Elt F)) :=
  ( StableHlo.unary main_v27 main_v31 (broadcastInDim S8x2304x1 ![0, 1] bcast_S8x2304_S8x2304x1_0_1 : (⟨S8x2304, .f32⟩ : BufTy).Contents (Elt F) → (⟨S8x2304x1, .f32⟩ : BufTy).Contents (Elt F))
  :: StableHlo.unary main_v30 main_v32 (broadcastInDim S8x2304x1 ![0, 1] bcast_S8x2304_S8x2304x1_0_1 : (⟨S8x2304, .f32⟩ : BufTy).Contents (Elt F) → (⟨S8x2304x1, .f32⟩ : BufTy).Contents (Elt F))
  :: StableHlo.binary main_v31 main_v32 main_v33 ((fun a b => concatenate S8x2304x2 2 [⟨S8x2304x1, a⟩, ⟨S8x2304x1, b⟩] concatenates_S8x2304x1_S8x2304x1_S8x2304x2_d2) : (⟨S8x2304x1, .f32⟩ : BufTy).Contents (Elt F) → (⟨S8x2304x1, .f32⟩ : BufTy).Contents (Elt F) → (⟨S8x2304x2, .f32⟩ : BufTy).Contents (Elt F))
  :: StableHlo.unary main_v33 main_v34 (Host.floor : (⟨S8x2304x2, .f32⟩ : BufTy).Contents (Elt F) → (⟨S8x2304x2, .f32⟩ : BufTy).Contents (Elt F))
  :: StableHlo.unary main_v34 main_v35 (broadcastInDim S8x2304x1x2 ![0, 1, 3] bcast_S8x2304x2_S8x2304x1x2_0_1_3 : (⟨S8x2304x2, .f32⟩ : BufTy).Contents (Elt F) → (⟨S8x2304x1x2, .f32⟩ : BufTy).Contents (Elt F))
  :: StableHlo.unary main_cst main_v36 (broadcastInDim S1x1x4x2 ![2, 3] bcast_S4x2_S1x1x4x2_2_3 : (⟨S4x2, .f32⟩ : BufTy).Contents (Elt F) → (⟨S1x1x4x2, .f32⟩ : BufTy).Contents (Elt F))
  :: StableHlo.unary main_v35 main_v37 (broadcastInDim S8x2304x4x2 ![0, 1, 2, 3] bcast_S8x2304x1x2_S8x2304x4x2_0_1_2_3 : (⟨S8x2304x1x2, .f32⟩ : BufTy).Contents (Elt F) → (⟨S8x2304x4x2, .f32⟩ : BufTy).Contents (Elt F))
  :: StableHlo.unary main_v36 main_v38 (broadcastInDim S8x2304x4x2 ![0, 1, 2, 3] bcast_S1x1x4x2_S8x2304x4x2_0_1_2_3 : (⟨S1x1x4x2, .f32⟩ : BufTy).Contents (Elt F) → (⟨S8x2304x4x2, .f32⟩ : BufTy).Contents (Elt F))
  :: StableHlo.binary main_v37 main_v38 main_v39 (addf : (⟨S8x2304x4x2, .f32⟩ : BufTy).Contents (Elt F) → (⟨S8x2304x4x2, .f32⟩ : BufTy).Contents (Elt F) → (⟨S8x2304x4x2, .f32⟩ : BufTy).Contents (Elt F))
  :: StableHlo.unary main_v39 main_v40 ((extractStridedSlice S8x2304x4x1 ![0, 0, 0, 0] · slices_S8x2304x4x2_S8x2304x4x1_0_0_0_0) : (⟨S8x2304x4x2, .f32⟩ : BufTy).Contents (Elt F) → (⟨S8x2304x4x1, .f32⟩ : BufTy).Contents (Elt F))
  :: StableHlo.reshape main_v40 main_v41 rfl shapeCasts_S8x2304x4x1_S8x2304x4
  :: StableHlo.nullary main_cst_11 (constant S_ .f32 0x42400000#32)
  :: StableHlo.unary main_cst_11 main_v42 (broadcastInDim S8x2304x4 ![] bcast_S_S8x2304x4 : (⟨S_, .f32⟩ : BufTy).Contents (Elt F) → (⟨S8x2304x4, .f32⟩ : BufTy).Contents (Elt F))
  :: StableHlo.binary main_v41 main_v42 main_v43 (mulf : (⟨S8x2304x4, .f32⟩ : BufTy).Contents (Elt F) → (⟨S8x2304x4, .f32⟩ : BufTy).Contents (Elt F) → (⟨S8x2304x4, .f32⟩ : BufTy).Contents (Elt F))
  :: StableHlo.unary main_v39 main_v44 ((extractStridedSlice S8x2304x4x1 ![0, 0, 0, 1] · slices_S8x2304x4x2_S8x2304x4x1_0_0_0_1) : (⟨S8x2304x4x2, .f32⟩ : BufTy).Contents (Elt F) → (⟨S8x2304x4x1, .f32⟩ : BufTy).Contents (Elt F))
  :: StableHlo.reshape main_v44 main_v45 rfl shapeCasts_S8x2304x4x1_S8x2304x4
  :: StableHlo.binary main_v43 main_v45 main_v46 (addf : (⟨S8x2304x4, .f32⟩ : BufTy).Contents (Elt F) → (⟨S8x2304x4, .f32⟩ : BufTy).Contents (Elt F) → (⟨S8x2304x4, .f32⟩ : BufTy).Contents (Elt F))
  :: StableHlo.unary main_v46 main_v47 (fptosi 32 : (⟨S8x2304x4, .f32⟩ : BufTy).Contents (Elt F) → (⟨S8x2304x4, .i32⟩ : BufTy).Contents (Elt F))
  :: StableHlo.binary main_v33 main_v34 main_v48 (subf : (⟨S8x2304x2, .f32⟩ : BufTy).Contents (Elt F) → (⟨S8x2304x2, .f32⟩ : BufTy).Contents (Elt F) → (⟨S8x2304x2, .f32⟩ : BufTy).Contents (Elt F))
  :: StableHlo.unary main_v48 main_v49 ((extractStridedSlice S8x2304x1 ![0, 0, 0] · slices_S8x2304x2_S8x2304x1_0_0_0) : (⟨S8x2304x2, .f32⟩ : BufTy).Contents (Elt F) → (⟨S8x2304x1, .f32⟩ : BufTy).Contents (Elt F))
  :: StableHlo.reshape main_v49 main_v50 rfl shapeCasts_S8x2304x1_S8x2304
  :: StableHlo.unary main_v48 main_v51 ((extractStridedSlice S8x2304x1 ![0, 0, 1] · slices_S8x2304x2_S8x2304x1_0_0_1) : (⟨S8x2304x2, .f32⟩ : BufTy).Contents (Elt F) → (⟨S8x2304x1, .f32⟩ : BufTy).Contents (Elt F))
  :: StableHlo.reshape main_v51 main_v52 rfl shapeCasts_S8x2304x1_S8x2304
  :: StableHlo.nullary main_cst_12 (constant S_ .f32 0x3F800000#32)
  :: StableHlo.unary main_cst_12 main_v53 (broadcastInDim S8x2304 ![] bcast_S_S8x2304 : (⟨S_, .f32⟩ : BufTy).Contents (Elt F) → (⟨S8x2304, .f32⟩ : BufTy).Contents (Elt F))
  :: StableHlo.binary main_v53 main_v50 main_v54 (subf : (⟨S8x2304, .f32⟩ : BufTy).Contents (Elt F) → (⟨S8x2304, .f32⟩ : BufTy).Contents (Elt F) → (⟨S8x2304, .f32⟩ : BufTy).Contents (Elt F))
  :: StableHlo.nullary main_cst_13 (constant S_ .f32 0x3F800000#32)
  :: StableHlo.unary main_cst_13 main_v55 (broadcastInDim S8x2304 ![] bcast_S_S8x2304 : (⟨S_, .f32⟩ : BufTy).Contents (Elt F) → (⟨S8x2304, .f32⟩ : BufTy).Contents (Elt F))
  :: StableHlo.binary main_v55 main_v52 main_v56 (subf : (⟨S8x2304, .f32⟩ : BufTy).Contents (Elt F) → (⟨S8x2304, .f32⟩ : BufTy).Contents (Elt F) → (⟨S8x2304, .f32⟩ : BufTy).Contents (Elt F))
  :: StableHlo.binary main_v54 main_v56 main_v57 (mulf : (⟨S8x2304, .f32⟩ : BufTy).Contents (Elt F) → (⟨S8x2304, .f32⟩ : BufTy).Contents (Elt F) → (⟨S8x2304, .f32⟩ : BufTy).Contents (Elt F))
  :: StableHlo.nullary main_cst_14 (constant S_ .f32 0x3F800000#32)
  :: StableHlo.unary main_cst_14 main_v58 (broadcastInDim S8x2304 ![] bcast_S_S8x2304 : (⟨S_, .f32⟩ : BufTy).Contents (Elt F) → (⟨S8x2304, .f32⟩ : BufTy).Contents (Elt F))
  :: StableHlo.binary main_v58 main_v50 main_v59 (subf : (⟨S8x2304, .f32⟩ : BufTy).Contents (Elt F) → (⟨S8x2304, .f32⟩ : BufTy).Contents (Elt F) → (⟨S8x2304, .f32⟩ : BufTy).Contents (Elt F))
  :: StableHlo.binary main_v59 main_v52 main_v60 (mulf : (⟨S8x2304, .f32⟩ : BufTy).Contents (Elt F) → (⟨S8x2304, .f32⟩ : BufTy).Contents (Elt F) → (⟨S8x2304, .f32⟩ : BufTy).Contents (Elt F))
  :: StableHlo.nullary main_cst_15 (constant S_ .f32 0x3F800000#32)
  :: StableHlo.unary main_cst_15 main_v61 (broadcastInDim S8x2304 ![] bcast_S_S8x2304 : (⟨S_, .f32⟩ : BufTy).Contents (Elt F) → (⟨S8x2304, .f32⟩ : BufTy).Contents (Elt F))
  :: StableHlo.binary main_v61 main_v52 main_v62 (subf : (⟨S8x2304, .f32⟩ : BufTy).Contents (Elt F) → (⟨S8x2304, .f32⟩ : BufTy).Contents (Elt F) → (⟨S8x2304, .f32⟩ : BufTy).Contents (Elt F))
  :: StableHlo.binary main_v50 main_v62 main_v63 (mulf : (⟨S8x2304, .f32⟩ : BufTy).Contents (Elt F) → (⟨S8x2304, .f32⟩ : BufTy).Contents (Elt F) → (⟨S8x2304, .f32⟩ : BufTy).Contents (Elt F))
  :: StableHlo.binary main_v50 main_v52 main_v64 (mulf : (⟨S8x2304, .f32⟩ : BufTy).Contents (Elt F) → (⟨S8x2304, .f32⟩ : BufTy).Contents (Elt F) → (⟨S8x2304, .f32⟩ : BufTy).Contents (Elt F))
  :: StableHlo.unary main_v57 main_v65 (broadcastInDim S8x2304x1 ![0, 1] bcast_S8x2304_S8x2304x1_0_1 : (⟨S8x2304, .f32⟩ : BufTy).Contents (Elt F) → (⟨S8x2304x1, .f32⟩ : BufTy).Contents (Elt F))
  :: StableHlo.unary main_v60 main_v66 (broadcastInDim S8x2304x1 ![0, 1] bcast_S8x2304_S8x2304x1_0_1 : (⟨S8x2304, .f32⟩ : BufTy).Contents (Elt F) → (⟨S8x2304x1, .f32⟩ : BufTy).Contents (Elt F))
  :: StableHlo.unary main_v63 main_v67 (broadcastInDim S8x2304x1 ![0, 1] bcast_S8x2304_S8x2304x1_0_1 : (⟨S8x2304, .f32⟩ : BufTy).Contents (Elt F) → (⟨S8x2304x1, .f32⟩ : BufTy).Contents (Elt F))
  :: StableHlo.unary main_v64 main_v68 (broadcastInDim S8x2304x1 ![0, 1] bcast_S8x2304_S8x2304x1_0_1 : (⟨S8x2304, .f32⟩ : BufTy).Contents (Elt F) → (⟨S8x2304x1, .f32⟩ : BufTy).Contents (Elt F))
  :: StableHlo.nary ![main_v65, main_v66, main_v67, main_v68] main_v69 (fun u => concatenate S8x2304x4 2 [⟨S8x2304x1, u 0⟩, ⟨S8x2304x1, u 1⟩, ⟨S8x2304x1, u 2⟩, ⟨S8x2304x1, u 3⟩] concatenates_S8x2304x1_S8x2304x1_S8x2304x1_S8x2304x1_S8x2304x4_d2)
  :: StableHlo.unary main_v23 main_v70 (broadcastInDim S1x2304x1 ![1] bcast_S2304_S1x2304x1_1 : (⟨S2304, .i1⟩ : BufTy).Contents (Elt F) → (⟨S1x2304x1, .i1⟩ : BufTy).Contents (Elt F))
  :: StableHlo.unary main_v70 main_v71 (uitofp .f32 : (⟨S1x2304x1, .i1⟩ : BufTy).Contents (Elt F) → (⟨S1x2304x1, .f32⟩ : BufTy).Contents (Elt F))
  :: StableHlo.unary main_v71 main_v72 (broadcastInDim S8x2304x4 ![0, 1, 2] bcast_S1x2304x1_S8x2304x4_0_1_2 : (⟨S1x2304x1, .f32⟩ : BufTy).Contents (Elt F) → (⟨S8x2304x4, .f32⟩ : BufTy).Contents (Elt F))
  :: StableHlo.binary main_v69 main_v72 main_v73 (mulf : (⟨S8x2304x4, .f32⟩ : BufTy).Contents (Elt F) → (⟨S8x2304x4, .f32⟩ : BufTy).Contents (Elt F) → (⟨S8x2304x4, .f32⟩ : BufTy).Contents (Elt F))
  :: StableHlo.nullary main_cst_16 (constant S_ .f32 0x00000000#32)
  :: StableHlo.unary main_cst_16 main_v74 (broadcastInDim S8x2304x2304 ![] bcast_S_S8x2304x2304 : (⟨S_, .f32⟩ : BufTy).Contents (Elt F) → (⟨S8x2304x2304, .f32⟩ : BufTy).Contents (Elt F))
  :: StableHlo.nullary main_v75 (iotaInDim S8 32 0)
  :: StableHlo.unary main_v75 main_v76 (broadcastInDim S8x1x1 ![0] bcast_S8_S8x1x1_0 : (⟨S8, .i32⟩ : BufTy).Contents (Elt F) → (⟨S8x1x1, .i32⟩ : BufTy).Contents (Elt F))
  :: StableHlo.nullary main_v77 (iotaInDim S2304 32 0)
  :: StableHlo.unary main_v77 main_v78 (broadcastInDim S1x2304x1 ![1] bcast_S2304_S1x2304x1_1 : (⟨S2304, .i32⟩ : BufTy).Contents (Elt F) → (⟨S1x2304x1, .i32⟩ : BufTy).Contents (Elt F))
  :: StableHlo.nullary main_c_17 (constantI S_ 32 0#32)
  :: StableHlo.unary main_c_17 main_v79 (broadcastInDim S8x1x1 ![] bcast_S_S8x1x1 : (⟨S_, .i32⟩ : BufTy).Contents (Elt F) → (⟨S8x1x1, .i32⟩ : BufTy).Contents (Elt F))
  :: StableHlo.binary main_v76 main_v79 main_v80 (cmpi .slt : (⟨S8x1x1, .i32⟩ : BufTy).Contents (Elt F) → (⟨S8x1x1, .i32⟩ : BufTy).Contents (Elt F) → (⟨S8x1x1, .i1⟩ : BufTy).Contents (Elt F))
  :: StableHlo.nullary main_c_18 (constantI S_ 32 8#32)
  :: StableHlo.unary main_c_18 main_v81 (broadcastInDim S8x1x1 ![] bcast_S_S8x1x1 : (⟨S_, .i32⟩ : BufTy).Contents (Elt F) → (⟨S8x1x1, .i32⟩ : BufTy).Contents (Elt F))
  :: StableHlo.binary main_v76 main_v81 main_v82 (addi : (⟨S8x1x1, .i32⟩ : BufTy).Contents (Elt F) → (⟨S8x1x1, .i32⟩ : BufTy).Contents (Elt F) → (⟨S8x1x1, .i32⟩ : BufTy).Contents (Elt F))
  :: StableHlo.ternary main_v80 main_v82 main_v76 main_v83 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F))
  :: StableHlo.nullary main_c_19 (constantI S_ 32 0#32)
  :: StableHlo.unary main_c_19 main_v84 (broadcastInDim S1x2304x1 ![] bcast_S_S1x2304x1 : (⟨S_, .i32⟩ : BufTy).Contents (Elt F) → (⟨S1x2304x1, .i32⟩ : BufTy).Contents (Elt F))
  :: StableHlo.binary main_v78 main_v84 main_v85 (cmpi .slt : (⟨S1x2304x1, .i32⟩ : BufTy).Contents (Elt F) → (⟨S1x2304x1, .i32⟩ : BufTy).Contents (Elt F) → (⟨S1x2304x1, .i1⟩ : BufTy).Contents (Elt F))
  :: StableHlo.nullary main_c_20 (constantI S_ 32 2304#32)
  :: StableHlo.unary main_c_20 main_v86 (broadcastInDim S1x2304x1 ![] bcast_S_S1x2304x1 : (⟨S_, .i32⟩ : BufTy).Contents (Elt F) → (⟨S1x2304x1, .i32⟩ : BufTy).Contents (Elt F))
  :: StableHlo.binary main_v78 main_v86 main_v87 (addi : (⟨S1x2304x1, .i32⟩ : BufTy).Contents (Elt F) → (⟨S1x2304x1, .i32⟩ : BufTy).Contents (Elt F) → (⟨S1x2304x1, .i32⟩ : BufTy).Contents (Elt F))
  :: StableHlo.ternary main_v85 main_v87 main_v78 main_v88 (select : (⟨S1x2304x1, .i1⟩ : BufTy).Contents (Elt F) → (⟨S1x2304x1, .i32⟩ : BufTy).Contents (Elt F) → (⟨S1x2304x1, .i32⟩ : BufTy).Contents (Elt F) → (⟨S1x2304x1, .i32⟩ : BufTy).Contents (Elt F))
  :: StableHlo.nullary main_c_21 (constantI S_ 32 0#32)
  :: StableHlo.unary main_c_21 main_v89 (broadcastInDim S8x2304x4 ![] bcast_S_S8x2304x4 : (⟨S_, .i32⟩ : BufTy).Contents (Elt F) → (⟨S8x2304x4, .i32⟩ : BufTy).Contents (Elt F))
  :: StableHlo.binary main_v47 main_v89 main_v90 (cmpi .slt : (⟨S8x2304x4, .i32⟩ : BufTy).Contents (Elt F) → (⟨S8x2304x4, .i32⟩ : BufTy).Contents (Elt F) → (⟨S8x2304x4, .i1⟩ : BufTy).Contents (Elt F))
  :: StableHlo.nullary main_c_22 (constantI S_ 32 2304#32)
  :: StableHlo.unary main_c_22 main_v91 (broadcastInDim S8x2304x4 ![] bcast_S_S8x2304x4 : (⟨S_, .i32⟩ : BufTy).Contents (Elt F) → (⟨S8x2304x4, .i32⟩ : BufTy).Contents (Elt F))
  :: StableHlo.binary main_v47 main_v91 main_v92 (addi : (⟨S8x2304x4, .i32⟩ : BufTy).Contents (Elt F) → (⟨S8x2304x4, .i32⟩ : BufTy).Contents (Elt F) → (⟨S8x2304x4, .i32⟩ : BufTy).Contents (Elt F))
  :: StableHlo.ternary main_v90 main_v92 main_v47 main_v93 (select : (⟨S8x2304x4, .i1⟩ : BufTy).Contents (Elt F) → (⟨S8x2304x4, .i32⟩ : BufTy).Contents (Elt F) → (⟨S8x2304x4, .i32⟩ : BufTy).Contents (Elt F) → (⟨S8x2304x4, .i32⟩ : BufTy).Contents (Elt F))
  :: StableHlo.unary main_v83 main_v94 (broadcastInDim S8x2304x4 ![0, 1, 2] bcast_S8x1x1_S8x2304x4_0_1_2 : (⟨S8x1x1, .i32⟩ : BufTy).Contents (Elt F) → (⟨S8x2304x4, .i32⟩ : BufTy).Contents (Elt F))
  :: StableHlo.unary main_v88 main_v95 (broadcastInDim S8x2304x4 ![0, 1, 2] bcast_S1x2304x1_S8x2304x4_0_1_2 : (⟨S1x2304x1, .i32⟩ : BufTy).Contents (Elt F) → (⟨S8x2304x4, .i32⟩ : BufTy).Contents (Elt F))
  :: StableHlo.unary main_v94 main_v96 (broadcastInDim S8x2304x4x1 ![0, 1, 2] bcast_S8x2304x4_S8x2304x4x1_0_1_2 : (⟨S8x2304x4, .i32⟩ : BufTy).Contents (Elt F) → (⟨S8x2304x4x1, .i32⟩ : BufTy).Contents (Elt F))
  :: StableHlo.unary main_v95 main_v97 (broadcastInDim S8x2304x4x1 ![0, 1, 2] bcast_S8x2304x4_S8x2304x4x1_0_1_2 : (⟨S8x2304x4, .i32⟩ : BufTy).Contents (Elt F) → (⟨S8x2304x4x1, .i32⟩ : BufTy).Contents (Elt F))
  :: StableHlo.unary main_v93 main_v98 (broadcastInDim S8x2304x4x1 ![0, 1, 2] bcast_S8x2304x4_S8x2304x4x1_0_1_2 : (⟨S8x2304x4, .i32⟩ : BufTy).Contents (Elt F) → (⟨S8x2304x4x1, .i32⟩ : BufTy).Contents (Elt F))
  :: StableHlo.nary ![main_v96, main_v97, main_v98] main_v99 (fun u => concatenate S8x2304x4x3 3 [⟨S8x2304x4x1, u 0⟩, ⟨S8x2304x4x1, u 1⟩, ⟨S8x2304x4x1, u 2⟩] concatenates_S8x2304x4x1_S8x2304x4x1_S8x2304x4x1_S8x2304x4x3_d3)
  :: StableHlo.ternary main_v74 main_v99 main_v73 main_v100 ((fun x i u => Host.scatterAdd scatter_S8x2304x2304_S8x2304x4x3_S8x2304x4_n_012_012_3 x i u) : (⟨S8x2304x2304, .f32⟩ : BufTy).Contents (Elt F) → (⟨S8x2304x4x3, .i32⟩ : BufTy).Contents (Elt F) → (⟨S8x2304x4, .f32⟩ : BufTy).Contents (Elt F) → (⟨S8x2304x2304, .f32⟩ : BufTy).Contents (Elt F))
  :: StableHlo.reshape main_arg0 main_v101 rfl shapeCasts_S8x128x48x48_S8x128x2304
  :: [] )

/-- Everything before the product: the matrix (`main_v100`) and the flattened image (`main_v101`). -/
abbrev pre : List (HloOp τ sig (Elt F)) := List.flatten [hostOps0, hostOps0_1, hostOps0_2, hostOps0_3, hostOps0_4]

/-- The batched product over the last axis of both operands, and the reshape of its result to the image's shape. -/
abbrev tail : List (HloOp τ sig (Elt F)) :=
  [ StableHlo.binary main_v101 main_v100 main_v102 ((fun l r => Host.dotGeneral dot_S8x128x2304_S8x2304x2304_S8x128x2304_2_2_1_1_0_0 none l r) : (⟨S8x128x2304, .f32⟩ : BufTy).Contents (Elt F) → (⟨S8x2304x2304, .f32⟩ : BufTy).Contents (Elt F) → (⟨S8x128x2304, .f32⟩ : BufTy).Contents (Elt F)),
    StableHlo.reshape main_v102 main_v103 rfl shapeCasts_S8x128x2304_S8x128x48x48 ]

/-- What the last two operations leave in the result buffer, from the flattened image and the matrix. -/
def result (x : (⟨S8x128x2304, .f32⟩ : BufTy).Contents (Elt F)) (w : (⟨S8x2304x2304, .f32⟩ : BufTy).Contents (Elt F)) :
    (⟨S8x128x48x48, .f32⟩ : BufTy).Contents (Elt F) :=
  shapeCast S8x128x48x48 (Host.dotGeneral dot_S8x128x2304_S8x2304x2304_S8x128x2304_2_2_1_1_0_0 none x w) shapeCasts_S8x128x2304_S8x128x48x48

end Cert.ReferenceIdeal.RefRun

end
-- ==== Proof.ReferenceRun.lean ====
/-
  The run of the reference program. @main is one straight line of host operations: the operations that
  build the interpolation matrix and flatten the image (`pre`), then the batched product and the reshape
  of its result (`tail`). From any memory with zero counters every weakly fair execution terminates; the
  result buffer then holds `result` of the flattened image and the matrix as the earlier operations leave
  them, and the two arguments hold what they held at launch. The earlier operations stay a fold
  (`after pre …`) that is not evaluated here: only the last two operations are.
-/
import proofs.«157045_j73959336837140_2_alg».proof.Proof.ReferenceOps
import Idealize.ShloMosaic.Lib.StableHlo.Run
import Idealize.ShloMosaic.Lib.Pipeline.Regions

set_option maxRecDepth 1764

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lists in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- @main is the straight line of its operations: with the two calls of the clipping function unfolded at
    their call sites and sequencing reassociated, both sides are the same chain of steps, one per operation,
    closed by the return — an equation by computation. -/
theorem main_eq (c : Dev nD) : main (F := F) c = seq (pre ++ tail) := by
  chain_rfl

theorem scopedRefs_eq : (Finset.univ.filter fun b : Ref sig .tc => b.isScoped) = ∅ := by decide
theorem scopedSems_eq : (Finset.univ.filter fun sm : SemLoc sig => sm.isScoped .tc) = ∅ := by decide

/-- An operation of the line belongs to one of the six lists. -/
theorem mem_ops {op : HloOp τ sig (Elt F)} (h : op ∈ (pre ++ tail : List (HloOp τ sig (Elt F)))) :
    op ∈ (hostOps0 : List (HloOp τ sig (Elt F))) ∨ op ∈ (hostOps0_1 : List (HloOp τ sig (Elt F))) ∨ op ∈ (hostOps0_2 : List (HloOp τ sig (Elt F)))
      ∨ op ∈ (hostOps0_3 : List (HloOp τ sig (Elt F))) ∨ op ∈ (hostOps0_4 : List (HloOp τ sig (Elt F))) ∨ op ∈ (tail : List (HloOp τ sig (Elt F))) := by
  simpa only [pre, List.flatten_cons, List.flatten_nil, List.append_nil, List.mem_append, or_assoc] using h

/-- A property of every operation of each of the six lists holds of every operation of the line. -/
theorem forall_ops {p : HloOp τ sig (Elt F) → Prop}
    (h0 : (hostOps0 : List (HloOp τ sig (Elt F))).Forall p) (h1 : (hostOps0_1 : List (HloOp τ sig (Elt F))).Forall p)
    (h2 : (hostOps0_2 : List (HloOp τ sig (Elt F))).Forall p) (h3 : (hostOps0_3 : List (HloOp τ sig (Elt F))).Forall p)
    (h4 : (hostOps0_4 : List (HloOp τ sig (Elt F))).Forall p) (ht : (tail : List (HloOp τ sig (Elt F))).Forall p) :
    ∀ op ∈ (pre ++ tail : List (HloOp τ sig (Elt F))), p op := by
  intro op hop
  rcases mem_ops hop with h | h | h | h | h | h
  · exact List.forall_iff_forall_mem.mp h0 op h
  · exact List.forall_iff_forall_mem.mp h1 op h
  · exact List.forall_iff_forall_mem.mp h2 op h
  · exact List.forall_iff_forall_mem.mp h3 op h
  · exact List.forall_iff_forall_mem.mp h4 op h
  · exact List.forall_iff_forall_mem.mp ht op h

/-! Every operation touches TensorCore references only. -/
theorem hostOps0_sub : (hostOps0 : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., binary_bufs_sub .., unary_bufs_sub .., reshape_bufs_sub .., nullary_bufs_sub .., unary_bufs_sub .., binary_bufs_sub .., nullary_bufs_sub .., binary_bufs_sub .., binary_bufs_sub .., unary_bufs_sub .., reshape_bufs_sub .., nullary_bufs_sub .., unary_bufs_sub .., binary_bufs_sub .., nullary_bufs_sub .., binary_bufs_sub .., unary_bufs_sub .., reshape_bufs_sub .., nullary_bufs_sub .., unary_bufs_sub .., binary_bufs_sub .., nullary_bufs_sub .., binary_bufs_sub .., binary_bufs_sub .., binary_bufs_sub .., reshape_bufs_sub .., reshape_bufs_sub .., unary_bufs_sub .., reshape_bufs_sub .., nullary_bufs_sub .., nullary_bufs_sub ..⟩
theorem hostOps0_1_sub : (hostOps0_1 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem hostOps0_2_sub : (hostOps0_2 : List (HloOp τ sig (Elt F))).Forall fun op => op.bufs ⊆ tcRefs τ sig :=
  ⟨unary_bufs_sub .., reshape_bufs_sub .., nullary_bufs_sub .., nullary_bufs_sub ..⟩
theorem hostOps0_3_sub : (hostOps0_3 : List (HloOp τ sig (Elt F))).Forall fun op => op.bufs ⊆ tcRefs τ sig :=
  ⟨unary_bufs_sub .., unary_bufs_sub .., binary_bufs_sub .., unary_bufs_sub .., unary_bufs_sub .., binary_bufs_sub ..⟩
set_option maxHeartbeats 40000000 in
theorem hostOps0_4_sub : (hostOps0_4 : List (HloOp τ sig (Elt F))).Forall fun op => op.bufs ⊆ tcRefs τ sig :=
  ⟨unary_bufs_sub .., unary_bufs_sub .., binary_bufs_sub .., unary_bufs_sub .., unary_bufs_sub .., unary_bufs_sub .., unary_bufs_sub .., unary_bufs_sub .., binary_bufs_sub .., unary_bufs_sub .., reshape_bufs_sub .., nullary_bufs_sub .., unary_bufs_sub .., binary_bufs_sub .., unary_bufs_sub .., reshape_bufs_sub .., binary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., nary_bufs_sub .., unary_bufs_sub .., unary_bufs_sub .., unary_bufs_sub .., binary_bufs_sub .., nullary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., ternary_bufs_sub .., reshape_bufs_sub ..⟩
theorem tail_sub : (tail : List (HloOp τ sig (Elt F))).Forall fun op => op.bufs ⊆ tcRefs τ sig :=
  ⟨binary_bufs_sub .., reshape_bufs_sub ..⟩

theorem ops_sub : (pre ++ tail : List (HloOp τ sig (Elt F))).Forall fun op => op.bufs ⊆ tcRefs τ sig :=
  List.forall_iff_forall_mem.mpr (forall_ops hostOps0_sub hostOps0_1_sub hostOps0_2_sub hostOps0_3_sub hostOps0_4_sub tail_sub)

/-! Every operation determines its results. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_1_fresh : (hostOps0_1 : List (HloOp τ sig (Elt F))).Forall fun op => op.fresh = ∅ :=
  ⟨rfl, rfl, rfl, rfl, rfl, rfl⟩
theorem hostOps0_2_fresh : (hostOps0_2 : List (HloOp τ sig (Elt F))).Forall fun op => op.fresh = ∅ :=
  ⟨rfl, rfl, rfl, rfl⟩
theorem hostOps0_3_fresh : (hostOps0_3 : List (HloOp τ sig (Elt F))).Forall fun op => op.fresh = ∅ :=
  ⟨rfl, rfl, rfl, rfl, rfl, rfl⟩
set_option maxHeartbeats 40000000 in
theorem hostOps0_4_fresh : (hostOps0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem tail_fresh : (tail : List (HloOp τ sig (Elt F))).Forall fun op => op.fresh = ∅ :=
  ⟨rfl, rfl⟩

theorem ops_fresh : ∀ op ∈ (pre ++ tail : List (HloOp τ sig (Elt F))), op.fresh = ∅ :=
  forall_ops hostOps0_fresh hostOps0_1_fresh hostOps0_2_fresh hostOps0_3_fresh hostOps0_4_fresh tail_fresh

/-! An operation writes its result buffer only: a reference other than that one is not among what it writes. -/
section Keeps
variable {r x a b c y : Ref sig .tc}
theorem nullary_keeps {v : y.ty.Contents (Elt F)} {hy} (h : r ≠ y) :
    Proc.devRef (τ := τ) .tc r ∉ (nullary (τ := τ) y v hy).writes := by
  rw [nullary_writes, Finset.mem_singleton]; exact devRef_ne_of_ne h
theorem unary_keeps {f : x.ty.Contents (Elt F) → y.ty.Contents (Elt F)} {hx hy} (h : r ≠ y) :
    Proc.devRef (τ := τ) .tc r ∉ (unary (τ := τ) x y f hx hy).writes := by
  rw [unary_writes, Finset.mem_singleton]; exact devRef_ne_of_ne h
theorem binary_keeps {f : a.ty.Contents (Elt F) → b.ty.Contents (Elt F) → y.ty.Contents (Elt F)} {ha hb hy} (h : r ≠ y) :
    Proc.devRef (τ := τ) .tc r ∉ (binary (τ := τ) a b y f ha hb hy).writes := by
  rw [binary_writes, Finset.mem_singleton]; exact devRef_ne_of_ne h
theorem ternary_keeps {f : c.ty.Contents (Elt F) → a.ty.Contents (Elt F) → b.ty.Contents (Elt F) → y.ty.Contents (Elt F)} {hc ha hb hy} (h : r ≠ y) :
    Proc.devRef (τ := τ) .tc r ∉ (ternary (τ := τ) c a b y f hc ha hb hy).writes := by
  rw [ternary_writes, Finset.mem_singleton]; exact devRef_ne_of_ne h
theorem reshape_keeps {he hn hx hy} (h : r ≠ y) :
    Proc.devRef (τ := τ) .tc r ∉ (reshape (τ := τ) (Val := Elt F) x y he hn hx hy).writes := by
  rw [reshape_writes, Finset.mem_singleton]; exact devRef_ne_of_ne h
theorem nary_keeps {n : Nat} {xs : Fin n → Ref sig .tc} {f : ((k : Fin n) → (xs k).ty.Contents (Elt F)) → y.ty.Contents (Elt F)} {hxs hy} (h : r ≠ y) :
    Proc.devRef (τ := τ) .tc r ∉ (nary (τ := τ) xs y f hxs hy).writes := by
  rw [nary_writes, Finset.mem_singleton]; exact devRef_ne_of_ne h
end Keeps

/-! No operation writes either argument of @main. -/
theorem hostOps0_keeps {r : Ref sig .tc} (hr : r = main_arg0 ∨ r = main_arg1) :
    (hostOps0 : List (HloOp τ sig (Elt F))).Forall fun op => Proc.devRef (τ := τ) .tc r ∉ op.writes := by
  rcases hr with rfl | rfl
  · exact ⟨nullary_keeps (by decide), unary_keeps (by decide), reshape_keeps (by decide), nullary_keeps (by decide), unary_keeps (by decide), binary_keeps (by decide), nullary_keeps (by decide), binary_keeps (by decide), unary_keeps (by decide), reshape_keeps (by decide), nullary_keeps (by decide), unary_keeps (by decide), binary_keeps (by decide), nullary_keeps (by decide), binary_keeps (by decide), binary_keeps (by decide), unary_keeps (by decide), reshape_keeps (by decide), nullary_keeps (by decide), unary_keeps (by decide), binary_keeps (by decide), nullary_keeps (by decide), binary_keeps (by decide), unary_keeps (by decide), reshape_keeps (by decide), nullary_keeps (by decide), unary_keeps (by decide), binary_keeps (by decide), nullary_keeps (by decide), binary_keeps (by decide), binary_keeps (by decide), binary_keeps (by decide), reshape_keeps (by decide), reshape_keeps (by decide), unary_keeps (by decide), reshape_keeps (by decide), nullary_keeps (by decide), nullary_keeps (by decide)⟩
  · exact ⟨nullary_keeps (by decide), unary_keeps (by decide), reshape_keeps (by decide), nullary_keeps (by decide), unary_keeps (by decide), binary_keeps (by decide), nullary_keeps (by decide), binary_keeps (by decide), unary_keeps (by decide), reshape_keeps (by decide), nullary_keeps (by decide), unary_keeps (by decide), binary_keeps (by decide), nullary_keeps (by decide), binary_keeps (by decide), binary_keeps (by decide), unary_keeps (by decide), reshape_keeps (by decide), nullary_keeps (by decide), unary_keeps (by decide), binary_keeps (by decide), nullary_keeps (by decide), binary_keeps (by decide), unary_keeps (by decide), reshape_keeps (by decide), nullary_keeps (by decide), unary_keeps (by decide), binary_keeps (by decide), nullary_keeps (by decide), binary_keeps (by decide), binary_keeps (by decide), binary_keeps (by decide), reshape_keeps (by decide), reshape_keeps (by decide), unary_keeps (by decide), reshape_keeps (by decide), nullary_keeps (by decide), nullary_keeps (by decide)⟩
theorem hostOps0_1_keeps {r : Ref sig .tc} (hr : r = main_arg0 ∨ r = main_arg1) :
    (hostOps0_1 : List (HloOp τ sig (Elt F))).Forall fun op => Proc.devRef (τ := τ) .tc r ∉ op.writes := by
  rcases hr with rfl | rfl
  · exact ⟨unary_keeps (by decide), unary_keeps (by decide), binary_keeps (by decide), unary_keeps (by decide), unary_keeps (by decide), binary_keeps (by decide)⟩
  · exact ⟨unary_keeps (by decide), unary_keeps (by decide), binary_keeps (by decide), unary_keeps (by decide), unary_keeps (by decide), binary_keeps (by decide)⟩
theorem hostOps0_2_keeps {r : Ref sig .tc} (hr : r = main_arg0 ∨ r = main_arg1) :
    (hostOps0_2 : List (HloOp τ sig (Elt F))).Forall fun op => Proc.devRef (τ := τ) .tc r ∉ op.writes := by
  rcases hr with rfl | rfl
  · exact ⟨unary_keeps (by decide), reshape_keeps (by decide), nullary_keeps (by decide), nullary_keeps (by decide)⟩
  · exact ⟨unary_keeps (by decide), reshape_keeps (by decide), nullary_keeps (by decide), nullary_keeps (by decide)⟩
theorem hostOps0_3_keeps {r : Ref sig .tc} (hr : r = main_arg0 ∨ r = main_arg1) :
    (hostOps0_3 : List (HloOp τ sig (Elt F))).Forall fun op => Proc.devRef (τ := τ) .tc r ∉ op.writes := by
  rcases hr with rfl | rfl
  · exact ⟨unary_keeps (by decide), unary_keeps (by decide), binary_keeps (by decide), unary_keeps (by decide), unary_keeps (by decide), binary_keeps (by decide)⟩
  · exact ⟨unary_keeps (by decide), unary_keeps (by decide), binary_keeps (by decide), unary_keeps (by decide), unary_keeps (by decide), binary_keeps (by decide)⟩
set_option maxHeartbeats 40000000 in
theorem hostOps0_4_keeps {r : Ref sig .tc} (hr : r = main_arg0 ∨ r = main_arg1) :
    (hostOps0_4 : List (HloOp τ sig (Elt F))).Forall fun op => Proc.devRef (τ := τ) .tc r ∉ op.writes := by
  rcases hr with rfl | rfl
  · exact ⟨unary_keeps (by decide), unary_keeps (by decide), binary_keeps (by decide), unary_keeps (by decide), unary_keeps (by decide), unary_keeps (by decide), unary_keeps (by decide), unary_keeps (by decide), binary_keeps (by decide), unary_keeps (by decide), reshape_keeps (by decide), nullary_keeps (by decide), unary_keeps (by decide), binary_keeps (by decide), unary_keeps (by decide), reshape_keeps (by decide), binary_keeps (by decide), unary_keeps (by decide), binary_keeps (by decide), unary_keeps (by decide), reshape_keeps (by decide), unary_keeps (by decide), reshape_keeps (by decide), nullary_keeps (by decide), unary_keeps (by decide), binary_keeps (by decide), nullary_keeps (by decide), unary_keeps (by decide), binary_keeps (by decide), binary_keeps (by decide), nullary_keeps (by decide), unary_keeps (by decide), binary_keeps (by decide), binary_keeps (by decide), nullary_keeps (by decide), unary_keeps (by decide), binary_keeps (by decide), binary_keeps (by decide), binary_keeps (by decide), unary_keeps (by decide), unary_keeps (by decide), unary_keeps (by decide), unary_keeps (by decide), nary_keeps (by decide), unary_keeps (by decide), unary_keeps (by decide), unary_keeps (by decide), binary_keeps (by decide), nullary_keeps (by decide), unary_keeps (by decide), nullary_keeps (by decide), unary_keeps (by decide), nullary_keeps (by decide), unary_keeps (by decide), nullary_keeps (by decide), unary_keeps (by decide), binary_keeps (by decide), nullary_keeps (by decide), unary_keeps (by decide), binary_keeps (by decide), ternary_keeps (by decide), nullary_keeps (by decide), unary_keeps (by decide), binary_keeps (by decide), nullary_keeps (by decide), unary_keeps (by decide), binary_keeps (by decide), ternary_keeps (by decide), nullary_keeps (by decide), unary_keeps (by decide), binary_keeps (by decide), nullary_keeps (by decide), unary_keeps (by decide), binary_keeps (by decide), ternary_keeps (by decide), unary_keeps (by decide), unary_keeps (by decide), unary_keeps (by decide), unary_keeps (by decide), unary_keeps (by decide), nary_keeps (by decide), ternary_keeps (by decide), reshape_keeps (by decide)⟩
  · exact ⟨unary_keeps (by decide), unary_keeps (by decide), binary_keeps (by decide), unary_keeps (by decide), unary_keeps (by decide), unary_keeps (by decide), unary_keeps (by decide), unary_keeps (by decide), binary_keeps (by decide), unary_keeps (by decide), reshape_keeps (by decide), nullary_keeps (by decide), unary_keeps (by decide), binary_keeps (by decide), unary_keeps (by decide), reshape_keeps (by decide), binary_keeps (by decide), unary_keeps (by decide), binary_keeps (by decide), unary_keeps (by decide), reshape_keeps (by decide), unary_keeps (by decide), reshape_keeps (by decide), nullary_keeps (by decide), unary_keeps (by decide), binary_keeps (by decide), nullary_keeps (by decide), unary_keeps (by decide), binary_keeps (by decide), binary_keeps (by decide), nullary_keeps (by decide), unary_keeps (by decide), binary_keeps (by decide), binary_keeps (by decide), nullary_keeps (by decide), unary_keeps (by decide), binary_keeps (by decide), binary_keeps (by decide), binary_keeps (by decide), unary_keeps (by decide), unary_keeps (by decide), unary_keeps (by decide), unary_keeps (by decide), nary_keeps (by decide), unary_keeps (by decide), unary_keeps (by decide), unary_keeps (by decide), binary_keeps (by decide), nullary_keeps (by decide), unary_keeps (by decide), nullary_keeps (by decide), unary_keeps (by decide), nullary_keeps (by decide), unary_keeps (by decide), nullary_keeps (by decide), unary_keeps (by decide), binary_keeps (by decide), nullary_keeps (by decide), unary_keeps (by decide), binary_keeps (by decide), ternary_keeps (by decide), nullary_keeps (by decide), unary_keeps (by decide), binary_keeps (by decide), nullary_keeps (by decide), unary_keeps (by decide), binary_keeps (by decide), ternary_keeps (by decide), nullary_keeps (by decide), unary_keeps (by decide), binary_keeps (by decide), nullary_keeps (by decide), unary_keeps (by decide), binary_keeps (by decide), ternary_keeps (by decide), unary_keeps (by decide), unary_keeps (by decide), unary_keeps (by decide), unary_keeps (by decide), unary_keeps (by decide), nary_keeps (by decide), ternary_keeps (by decide), reshape_keeps (by decide)⟩
theorem tail_keeps {r : Ref sig .tc} (hr : r = main_arg0 ∨ r = main_arg1) :
    (tail : List (HloOp τ sig (Elt F))).Forall fun op => Proc.devRef (τ := τ) .tc r ∉ op.writes := by
  rcases hr with rfl | rfl
  · exact ⟨binary_keeps (by decide), reshape_keeps (by decide)⟩
  · exact ⟨binary_keeps (by decide), reshape_keeps (by decide)⟩

/-- An argument of @main holds after the line what it held before. -/
theorem after_arg {r : Ref sig .tc} (hr : r = main_arg0 ∨ r = main_arg1) (V : Valuation τ sig (Elt F)) :
    after (pre ++ tail) V (Proc.devRef .tc r) = V (Proc.devRef .tc r) :=
  after_of_forall_not_mem _ V (forall_ops (hostOps0_keeps hr) (hostOps0_1_keeps hr) (hostOps0_2_keeps hr) (hostOps0_3_keeps hr)
    (hostOps0_4_keeps hr) (tail_keeps hr))

/-- The result buffer after the line: the last two operations' value of the flattened image and the matrix as
    the operations before them leave them. -/
theorem after_result (V : Valuation τ sig (Elt F)) :
    after (pre ++ tail) V (Proc.devRef .tc main_v103)
      = result (after pre V (Proc.devRef .tc main_v101)) (after pre V (Proc.devRef .tc main_v100)) := by
  rw [after_app]
  generalize after pre V = W
  simp only [tail]
  after_results
  rfl

/-- On every device, for any float values, from any memory with zero counters: every weakly fair execution of
    @main terminates with the result buffer at the product of the flattened image and the matrix the earlier
    operations compute, and the two arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103)
          = result (after pre (launchContents m c) (Proc.devRef .tc main_v101)) (after pre (launchContents m c) (Proc.devRef .tc main_v100))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v103).trans (after_result _),
      (h c main_arg0).trans (after_arg (Or.inl rfl) _),
      (h c main_arg1).trans (after_arg (Or.inr rfl) _)⟩)
    (run_seq scopedRefs_eq scopedSems_eq defs main (fun _ => pre ++ tail) main_eq (fun _ => ops_sub) m ρ (fun _ => ops_fresh))

end Cert.ReferenceIdeal.RefRun

end
-- ==== Proof.ReferenceProduct.lean ====
/-
  The reference's product read at an index: one batched contraction of the flattened image with the interpolation
  matrix over the last axis of both, as a finite sum over the extended reals.
-/
import proofs.«157045_j73959336837140_2_alg».proof.Proof.Gen.ReferenceIdeal
import proofs.«157045_j73959336837140_2_alg».proof.Proof.Remap
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Product

open Cert.ReferenceIdeal Idealize.ShloMosaic Idealize.ShloMosaic.ValueIdx

/-- The left operand's index of the batched product at output (n, c, q) and contraction position k is (n, c, k). -/
theorem lhsIdx_eq (n : Fin 8) (c : Fin 128) (q : Fin 2304) (k : Fin 2304) :
    dot_S8x128x2304_S8x2304x2304_S8x128x2304_2_2_1_1_0_0.lhsIdx (ix3 n c q) ((contrEquiv1 dot_S8x128x2304_S8x2304x2304_S8x128x2304_2_2_1_1_0_0 2304 rfl rfl).symm k) = ix3 n c k := by
  have ck := contrEquiv1_symm_val dot_S8x128x2304_S8x2304x2304_S8x128x2304_2_2_1_1_0_0 2304 rfl rfl k
  funext ax; apply Fin.ext
  match ax with
  | ⟨0, _⟩ => simp [DotDims.lhsIdx, dot_S8x128x2304_S8x2304x2304_S8x128x2304_2_2_1_1_0_0]; rfl
  | ⟨1, _⟩ => simp [DotDims.lhsIdx, dot_S8x128x2304_S8x2304x2304_S8x128x2304_2_2_1_1_0_0]; rfl
  | ⟨2, _⟩ => simp [DotDims.lhsIdx, dot_S8x128x2304_S8x2304x2304_S8x128x2304_2_2_1_1_0_0]; exact ck

/-- The right operand's index there is (n, q, k): the same batch coordinate, the output's last coordinate on the
    right operand's free axis, the contraction position on its last axis. -/
theorem rhsIdx_eq (n : Fin 8) (c : Fin 128) (q : Fin 2304) (k : Fin 2304) :
    dot_S8x128x2304_S8x2304x2304_S8x128x2304_2_2_1_1_0_0.rhsIdx (ix3 n c q) ((contrEquiv1 dot_S8x128x2304_S8x2304x2304_S8x128x2304_2_2_1_1_0_0 2304 rfl rfl).symm k) = ix3 n q k := by
  have ck := contrEquiv1_symm_val dot_S8x128x2304_S8x2304x2304_S8x128x2304_2_2_1_1_0_0 2304 rfl rfl k
  funext ax; apply Fin.ext
  match ax with
  | ⟨0, _⟩ => simp [DotDims.rhsIdx, dot_S8x128x2304_S8x2304x2304_S8x128x2304_2_2_1_1_0_0]; rfl
  | ⟨1, _⟩ => simp [DotDims.rhsIdx, dot_S8x128x2304_S8x2304x2304_S8x128x2304_2_2_1_1_0_0]; rfl
  | ⟨2, _⟩ => simp [DotDims.rhsIdx, dot_S8x128x2304_S8x2304x2304_S8x128x2304_2_2_1_1_0_0]; exact ck

/-- The batched product read at (n, c, q): the sum over the contracted coordinate. -/
theorem dot_apply (x : FVec Ideal S8x128x2304 .f32) (w : FVec Ideal S8x2304x2304 .f32)
    (n : Fin 8) (c : Fin 128) (q : Fin 2304) :
    Host.dotGeneral (F := Ideal) dot_S8x128x2304_S8x2304x2304_S8x128x2304_2_2_1_1_0_0 none x w (ix3 n c q)
      = ∑ k : Fin 2304, x (ix3 n c k) * w (ix3 n q k) := by
  refine (Ideal.dotGeneral_apply dot_S8x128x2304_S8x2304x2304_S8x128x2304_2_2_1_1_0_0 none .single x w (ix3 n c q)).trans ?_
  rw [← Equiv.sum_comp (contrEquiv1 dot_S8x128x2304_S8x2304x2304_S8x128x2304_2_2_1_1_0_0 2304 rfl rfl).symm]
  refine Finset.sum_congr rfl fun k _ => ?_
  rw [lhsIdx_eq, rhsIdx_eq]

/-- The reference's product is the resampling map of the two operands. -/
theorem dot_eq_remap (x : FVec Ideal S8x128x2304 .f32) (w : FVec Ideal S8x2304x2304 .f32) :
    Host.dotGeneral (F := Ideal) dot_S8x128x2304_S8x2304x2304_S8x128x2304_2_2_1_1_0_0 none x w = Cert.Remap.remap x w := by
  funext i
  obtain ⟨n, c, q, rfl⟩ : ∃ (n : Fin 8) (c : Fin 128) (q : Fin 2304), i = ix3 n c q := ⟨i 0, i 1, i 2, eq_ix3 i⟩
  exact dot_apply x w n c q

end Cert.ReferenceIdeal.Product

end
-- ==== Proof.HostPrefix.lean ====
/-
  The two programs build the same interpolation matrix and the same flattened image. Before the
  product both run the same host operations, each over its own table of buffers. The contents of a
  buffer after a line of operations is the composition of the operations' functions applied to the
  contents the line started from; evaluated so on each side, the two compositions are the same
  term — the same functions at the same shapes — once the argument buffers agree.
-/
import proofs.«157045_j73959336837140_2_alg».proof.Proof.Gen.KernelIdeal.Launch
import proofs.«157045_j73959336837140_2_alg».proof.Proof.ReferenceOps
import Idealize.ShloMosaic.Lib.StableHlo.Run

noncomputable section

namespace Cert.HostPrefix

open Idealize.ShloMosaic Idealize.ShloMosaic.StableHlo Idealize.SL.Sem

/-! ## Tuples of operands -/

section Tuples
universe u

/-- A dependent triple as a function on `Fin 3`. -/
def tup3 {α : Fin 3 → Sort u} (A : α 0) (B : α 1) (C : α 2) : (k : Fin 3) → α k
  | ⟨0, _⟩ => A
  | ⟨1, _⟩ => B
  | ⟨2, _⟩ => C

/-- A dependent quadruple as a function on `Fin 4`. -/
def tup4 {α : Fin 4 → Sort u} (A : α 0) (B : α 1) (C : α 2) (D : α 3) : (k : Fin 4) → α k
  | ⟨0, _⟩ => A
  | ⟨1, _⟩ => B
  | ⟨2, _⟩ => C
  | ⟨3, _⟩ => D

theorem tup3_0 {α : Fin 3 → Sort u} (A : α 0) (B : α 1) (C : α 2) : tup3 A B C 0 = A := rfl
theorem tup3_1 {α : Fin 3 → Sort u} (A : α 0) (B : α 1) (C : α 2) : tup3 A B C 1 = B := rfl
theorem tup3_2 {α : Fin 3 → Sort u} (A : α 0) (B : α 1) (C : α 2) : tup3 A B C 2 = C := rfl
theorem tup4_0 {α : Fin 4 → Sort u} (A : α 0) (B : α 1) (C : α 2) (D : α 3) : tup4 A B C D 0 = A := rfl
theorem tup4_1 {α : Fin 4 → Sort u} (A : α 0) (B : α 1) (C : α 2) (D : α 3) : tup4 A B C D 1 = B := rfl
theorem tup4_2 {α : Fin 4 → Sort u} (A : α 0) (B : α 1) (C : α 2) (D : α 3) : tup4 A B C D 2 = C := rfl
theorem tup4_3 {α : Fin 4 → Sort u} (A : α 0) (B : α 1) (C : α 2) (D : α 3) : tup4 A B C D 3 = D := rfl

end Tuples

/-! ## Operations of three and four operands, and concatenations -/

section Results
variable {τ : Topo} {sig : RefSig} {Val : EltTy → Type} {x a b c y : Ref sig .tc}

/-- An operation over a literal family of three references leaves at its result buffer its function's
    value at the three operands' contents, each read at its own reference. -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (tup3 (V (Proc.devRef .tc x)) (V (Proc.devRef .tc a)) (V (Proc.devRef .tc b))) := by
  rw [nary_result]; congr 1; funext k; fin_cases k <;> rfl

/-- The same over a literal family of four references. -/
theorem nary4_result''
    (f : ((k : Fin 4) → ((![x, a, b, c] : Fin 4 → Ref sig .tc) k).ty.Contents Val) → y.ty.Contents Val) (hxs hy)
    (V : Valuation τ sig Val) :
    (nary (τ := τ) ![x, a, b, c] y f hxs hy).result V (no_index (Proc.devRef .tc y))
      = f (tup4 (V (Proc.devRef .tc x)) (V (Proc.devRef .tc a)) (V (Proc.devRef .tc b)) (V (Proc.devRef .tc c))) := by
  rw [nary_result]; congr 1; funext k; fin_cases k <;> rfl

end Results

section Congr
variable {α : Type} {t : Shape} {ax : Fin t.rank} {s0 s1 s2 s3 : Shape}

/-- A concatenation of two arrays depends only on the two arrays. -/
theorem concatenate_congr2 {a a' : s0.Idx → α} {b b' : s1.Idx → α} {h : Shape.Concatenates [s0, s1] t ax}
    (ha : a = a') (hb : b = b') :
    concatenate t ax [⟨s0, a⟩, ⟨s1, b⟩] h = concatenate t ax [⟨s0, a'⟩, ⟨s1, b'⟩] h := by
  subst ha; subst hb; rfl

/-- The same for three arrays. -/
theorem concatenate_congr3 {a a' : s0.Idx → α} {b b' : s1.Idx → α} {c c' : s2.Idx → α}
    {h : Shape.Concatenates [s0, s1, s2] t ax} (ha : a = a') (hb : b = b') (hc : c = c') :
    concatenate t ax [⟨s0, a⟩, ⟨s1, b⟩, ⟨s2, c⟩] h = concatenate t ax [⟨s0, a'⟩, ⟨s1, b'⟩, ⟨s2, c'⟩] h := by
  subst ha; subst hb; subst hc; rfl

/-- The same for four arrays. -/
theorem concatenate_congr4 {a a' : s0.Idx → α} {b b' : s1.Idx → α} {c c' : s2.Idx → α} {d d' : s3.Idx → α}
    {h : Shape.Concatenates [s0, s1, s2, s3] t ax} (ha : a = a') (hb : b = b') (hc : c = c') (hd : d = d') :
    concatenate t ax [⟨s0, a⟩, ⟨s1, b⟩, ⟨s2, c⟩, ⟨s3, d⟩] h
      = concatenate t ax [⟨s0, a'⟩, ⟨s1, b'⟩, ⟨s2, c'⟩, ⟨s3, d'⟩] h := by
  subst ha; subst hb; subst hc; subst hd; rfl

end Congr

attribute [local congr] concatenate_congr2 concatenate_congr3 concatenate_congr4

/-- Evaluates a buffer's contents after a literal line of operations to the composition of the operations'
    functions over the starting contents: each operation's result at its own buffer is its function's value
    at its operands' contents, at any other buffer what was there; an operand tuple read at a literal
    position is that operand. -/
macro "host_eval" : tactic =>
  `(tactic| simp (disch := decide) only [after_cons, after_nil,
      nullary_result', unary_result', binary_result', ternary_result', reshape_result', nary3_result', nary4_result'',
      tup3_0, tup3_1, tup3_2, tup4_0, tup4_1, tup4_2, tup4_3,
      nullary_result_ne', unary_result_ne', binary_result_ne', ternary_result_ne', reshape_result_ne', nary_result_ne'])

/-! ## The two lines agree -/

variable {F : FTy → Type} [FloatOps F]

/-- The kernel program's host operations before the product, in order. -/
abbrev preK : List (HloOp Cert.KernelIdeal.τ Cert.KernelIdeal.sig (Elt F)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4]

attribute [local irreducible] Host.reduce Host.scatterAdd in
set_option backward.isDefEq.respectTransparency.types false in
set_option maxHeartbeats 4000000 in
set_option maxRecDepth 16384 in
/-- The matrix: from contents that agree on the sampling grid, the two lines leave the same contents in
    their matrix buffers. Each side is evaluated to the composition of its operations' functions over the
    starting contents; the two compositions are the same functions at the same shapes, and differ only in
    which program's names spell those shapes. -/
theorem matrix_agree_val (VR : Valuation Cert.ReferenceIdeal.τ Cert.ReferenceIdeal.sig (Elt F))
    (VK : Valuation Cert.KernelIdeal.τ Cert.KernelIdeal.sig (Elt F))
    (h1 : VR (Proc.devRef .tc Cert.ReferenceIdeal.main_arg1) = VK (Proc.devRef .tc Cert.KernelIdeal.main_arg1)) :
    after (Cert.ReferenceIdeal.RefRun.pre (F := F)) VR (Proc.devRef .tc Cert.ReferenceIdeal.main_v100)
      = after (preK (F := F)) VK (Proc.devRef .tc Cert.KernelIdeal.main_v100) := by
  refine Eq.trans (b := ?TR) ?hR (Eq.trans (b := ?TK) ?cmp ?hK)
  case hR =>
    simp only [List.flatten_cons, List.flatten_nil, List.append_nil, List.cons_append, List.nil_append]
    host_eval
    exact rfl
  case hK =>
    symm
    simp only [List.flatten_cons, List.flatten_nil, List.append_nil, List.cons_append, List.nil_append]
    host_eval
    exact rfl
  case cmp =>
    simp only [h1]
    rfl

set_option backward.isDefEq.respectTransparency.types false in
set_option maxHeartbeats 4000000 in
set_option maxRecDepth 16384 in
/-- The flattened image: from contents that agree on the image, the two lines leave the same contents in
    their flattened-image buffers (the last operation of each line, a reshape of the image). -/
theorem image_agree_val (VR : Valuation Cert.ReferenceIdeal.τ Cert.ReferenceIdeal.sig (Elt F))
    (VK : Valuation Cert.KernelIdeal.τ Cert.KernelIdeal.sig (Elt F))
    (h0 : VR (Proc.devRef .tc Cert.ReferenceIdeal.main_arg0) = VK (Proc.devRef .tc Cert.KernelIdeal.main_arg0)) :
    after (Cert.ReferenceIdeal.RefRun.pre (F := F)) VR (Proc.devRef .tc Cert.ReferenceIdeal.main_v101)
      = after (preK (F := F)) VK (Proc.devRef .tc Cert.KernelIdeal.main_v101) := by
  refine Eq.trans (b := ?TR) ?hR (Eq.trans (b := ?TK) ?cmp ?hK)
  case hR =>
    simp only [List.flatten_cons, List.flatten_nil, List.append_nil, List.cons_append, List.nil_append]
    host_eval
    exact rfl
  case hK =>
    symm
    simp only [List.flatten_cons, List.flatten_nil, List.append_nil, List.cons_append, List.nil_append]
    host_eval
    exact rfl
  case cmp =>
    simp only [h0]
    rfl

/-- The matrix, from two memories that agree on the sampling grid: the reference's line from its launch
    contents and the kernel program's line from its own leave the same matrix. -/
theorem matrix_agree
    (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ) (c : Dev 1)
    (h1 : mR ((c.tc : Thread Cert.ReferenceIdeal.nD Cert.ReferenceIdeal.τ).loc Cert.ReferenceIdeal.main_arg1)
      = mK ((c.tc : Thread Cert.KernelIdeal.nD Cert.KernelIdeal.τ).loc Cert.KernelIdeal.main_arg1)) :
    StableHlo.after Cert.ReferenceIdeal.RefRun.pre (launchContents mR c) (Proc.devRef .tc Cert.ReferenceIdeal.main_v100)
      = StableHlo.after (List.flatten [Cert.KernelIdeal.Gen.hostOps0, Cert.KernelIdeal.Gen.hostOps0_1,
          Cert.KernelIdeal.Gen.hostOps0_2, Cert.KernelIdeal.Gen.hostOps0_3, Cert.KernelIdeal.Gen.hostOps0_4])
        (fun b => mK (c, b)) (Proc.devRef .tc Cert.KernelIdeal.main_v100) :=
  matrix_agree_val (launchContents mR c) (fun b => mK (c, b)) h1

/-- The flattened image, from two memories that agree on the image. -/
theorem image_agree
    (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ) (c : Dev 1)
    (h0 : mR ((c.tc : Thread Cert.ReferenceIdeal.nD Cert.ReferenceIdeal.τ).loc Cert.ReferenceIdeal.main_arg0)
      = mK ((c.tc : Thread Cert.KernelIdeal.nD Cert.KernelIdeal.τ).loc Cert.KernelIdeal.main_arg0)) :
    StableHlo.after Cert.ReferenceIdeal.RefRun.pre (launchContents mR c) (Proc.devRef .tc Cert.ReferenceIdeal.main_v101)
      = StableHlo.after (List.flatten [Cert.KernelIdeal.Gen.hostOps0, Cert.KernelIdeal.Gen.hostOps0_1,
          Cert.KernelIdeal.Gen.hostOps0_2, Cert.KernelIdeal.Gen.hostOps0_3, Cert.KernelIdeal.Gen.hostOps0_4])
        (fun b => mK (c, b)) (Proc.devRef .tc Cert.KernelIdeal.main_v101) :=
  image_agree_val (launchContents mR c) (fun b => mK (c, b)) h0

end Cert.HostPrefix

end
-- ==== Proof.lean ====
/-
  The certificate's claims.

  The kernel program and the reference build the same interpolation matrix `w` from the sampling grid and the same
  flattened image `x` by the same host operations, and both end with the reshape of out[n, c, q] = Σ_k x[n, c, k] · w[n, q, k]:
  the kernel program computes it block by block on the grid 8 × 3 (each block a product into a zero accumulator, the
  24 blocks tiling the result), the reference by one batched product. At the extended reals both are the same finite
  sums, so the results agree index by index; no finiteness of the inputs is used. The frames: each program runs to
  the end, nothing faults, and no operation writes an argument array. The idealization rewrote nothing, so
  `preserves` has nothing to state.
-/
import proofs.«157045_j73959336837140_2_alg».proof.Defs
import proofs.«157045_j73959336837140_2_alg».proof.Proof.Gen.Kernel
import proofs.«157045_j73959336837140_2_alg».proof.Proof.Gen.KernelIdeal
import proofs.«157045_j73959336837140_2_alg».proof.Proof.Gen.ReferenceIdeal
import proofs.«157045_j73959336837140_2_alg».proof.Proof.Gen.Pre_finite_inputs
import proofs.«157045_j73959336837140_2_alg».proof.Proof.KernelFrame
import proofs.«157045_j73959336837140_2_alg».proof.Proof.KernelIdealFrame
import proofs.«157045_j73959336837140_2_alg».proof.Proof.KernelValue
import proofs.«157045_j73959336837140_2_alg».proof.Proof.ReferenceRun
import proofs.«157045_j73959336837140_2_alg».proof.Proof.ReferenceProduct
import proofs.«157045_j73959336837140_2_alg».proof.Proof.HostPrefix
import Idealize.ShloMosaic.Adequacy
import Idealize.ShloMosaic.Init

noncomputable section

namespace Cert.Proof

open Idealize.ShloMosaic Idealize.SL.Sem

/-- The kernel program as printed runs to the end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's run, its result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From agreeing arguments both programs end with the reshape of `remap x w`, `x` the flattened image and `w` the
    interpolation matrix: the kernel program's result array is `remap x w` block by block, the reference's batched
    product is `remap x w` index by index, and the two programs' `x` and `w` are the same functions of the arguments. -/
theorem algebraic : Cert.algebraic_KernelIdeal_ReferenceIdeal := by
  intro m ρ m' ρ' _ hagree
  refine ⟨_, Cert.KernelIdeal.ProductValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.HostPrefix.image_agree m m' c (hagree c).1, Cert.HostPrefix.matrix_agree m m' c (hagree c).2]
  unfold Cert.ReferenceIdeal.RefRun.result
  rw [Cert.ReferenceIdeal.Product.dot_eq_remap]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
